-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x384 : Shape := ⟨2, ![262144, 384]⟩
abbrev S384 : Shape := ⟨1, ![384]⟩
abbrev S384x128 : Shape := ⟨2, ![384, 128]⟩
abbrev S128 : Shape := ⟨1, ![128]⟩
abbrev S128x128 : Shape := ⟨2, ![128, 128]⟩
abbrev S128x50 : Shape := ⟨2, ![128, 50]⟩
abbrev S50 : Shape := ⟨1, ![50]⟩
abbrev S_ : Shape := ⟨0, ![]⟩

class Facts : Prop where
  bcast_S_S262144x384 : S_.BroadcastsInDim S262144x384 (![] : Fin 0 → Fin S262144x384.rank)
  reducesTo_S262144x384_S_d0_1 : S262144x384.ReducesTo [0, 1] S_
  h_S_ : 0 < S_.numel
  bcast_S_S384 : S_.BroadcastsInDim S384 (![] : Fin 0 → Fin S384.rank)
  reducesTo_S384_S_d0 : S384.ReducesTo [0] S_
  bcast_S_S384x128 : S_.BroadcastsInDim S384x128 (![] : Fin 0 → Fin S384x128.rank)
  reducesTo_S384x128_S_d0_1 : S384x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x50 : S_.BroadcastsInDim S128x50 (![] : Fin 0 → Fin S128x50.rank)
  reducesTo_S128x50_S_d0_1 : S128x50.ReducesTo [0, 1] S_
  bcast_S_S50 : S_.BroadcastsInDim S50 (![] : Fin 0 → Fin S50.rank)
  reducesTo_S50_S_d0 : S50.ReducesTo [0] S_

variable [Facts]

def fn_part2 {F : FTy → Type} [FloatOps F] (main_arg7 : FVec F S128x50 .f32) (main_arg8 : FVec F S50 .f32) (main_v33 : IVec S_ 1) : IVec S_ 1 :=
  let main_v34 : FVec F S128x50 .f32 := Host.absf main_arg7
  let main_cst_12 : FVec F S_ .f32 := constant S_ .f32 0x7F800000#32
  let main_v35 : FVec F S128x50 .f32 := broadcastInDim S128x50 ![] bcast_S_S128x50 main_cst_12
  let main_v36 : IVec S128x50 1 := cmpf .olt main_v34 main_v35
  let main_c_13 : IVec S_ 1 := constantI S_ 1 1#1
  let main_v37 : IVec S_ 1 := (fun x v => Host.reduce IntOp.andi x v reducesTo_S128x50_S_d0_1 h_S_) main_v36 main_c_13
  let main_v38 : IVec S_ 1 := andi main_v33 main_v37
  let main_v39 : FVec F S50 .f32 := Host.absf main_arg8
  let main_cst_14 : FVec F S_ .f32 := constant S_ .f32 0x7F800000#32
  let main_v40 : FVec F S50 .f32 := broadcastInDim S50 ![] bcast_S_S50 main_cst_14
  let main_v41 : IVec S50 1 := cmpf .olt main_v39 main_v40
  let main_c_15 : IVec S_ 1 := constantI S_ 1 1#1
  let main_v42 : IVec S_ 1 := (fun x v => Host.reduce IntOp.andi x v reducesTo_S50_S_d0 h_S_) main_v41 main_c_15
  let main_v43 : IVec S_ 1 := andi main_v38 main_v42
  main_v43

def fn_part1 {F : FTy → Type} [FloatOps F] (main_arg4 : FVec F S128 .f32) (main_arg5 : FVec F S128x128 .f32) (main_arg6 : FVec F S128 .f32) (main_arg7 : FVec F S128x50 .f32) (main_arg8 : FVec F S50 .f32) (main_v13 : IVec S_ 1) (main_v16 : IVec S384x128 1) : IVec S_ 1 :=
  let main_c_5 : IVec S_ 1 := constantI S_ 1 1#1
  let main_v17 : IVec S_ 1 := (fun x v => Host.reduce IntOp.andi x v reducesTo_S384x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_v33

def fn {F : FTy → Type} [FloatOps F] (main_arg0 : FVec F S262144x384 .f32) (main_arg1 : FVec F S384 .f32) (main_arg2 : FVec F S384 .f32) (main_arg3 : FVec F S384x128 .f32) (main_arg4 : FVec F S128 .f32) (main_arg5 : FVec F S128x128 .f32) (main_arg6 : FVec F S128 .f32) (main_arg7 : FVec F S128x50 .f32) (main_arg8 : FVec F S50 .f32) : IVec S_ 1 :=
  let main_v0 : FVec F S262144x384 .f32 := Host.absf main_arg0
  let main_cst : FVec F S_ .f32 := constant S_ .f32 0x7F800000#32
  let main_v1 : FVec F S262144x384 .f32 := broadcastInDim S262144x384 ![] bcast_S_S262144x384 main_cst
  let main_v2 : IVec S262144x384 1 := cmpf .olt main_v0 main_v1
  let main_c : IVec S_ 1 := constantI S_ 1 1#1
  let main_v3 : IVec S_ 1 := (fun x v => Host.reduce IntOp.andi x v reducesTo_S262144x384_S_d0_1 h_S_) main_v2 main_c
  let main_v4 : FVec F S384 .f32 := Host.absf main_arg1
  let main_cst_0 : FVec F S_ .f32 := constant S_ .f32 0x7F800000#32
  let main_v5 : FVec F S384 .f32 := broadcastInDim S384 ![] bcast_S_S384 main_cst_0
  let main_v6 : IVec S384 1 := cmpf .olt main_v4 main_v5
  let main_c_1 : IVec S_ 1 := constantI S_ 1 1#1
  let main_v7 : IVec S_ 1 := (fun x v => Host.reduce IntOp.andi x v reducesTo_S384_S_d0 h_S_) main_v6 main_c_1
  let main_v8 : IVec S_ 1 := andi main_v3 main_v7
  let main_v9 : FVec F S384 .f32 := Host.absf main_arg2
  let main_cst_2 : FVec F S_ .f32 := constant S_ .f32 0x7F800000#32
  let main_v10 : FVec F S384 .f32 := broadcastInDim S384 ![] bcast_S_S384 main_cst_2
  let main_v11 : IVec S384 1 := cmpf .olt main_v9 main_v10
  let main_c_3 : IVec S_ 1 := constantI S_ 1 1#1
  let main_v12 : IVec S_ 1 := (fun x v => Host.reduce IntOp.andi x v reducesTo_S384_S_d0 h_S_) main_v11 main_c_3
  let main_v13 : IVec S_ 1 := andi main_v8 main_v12
  let main_v14 : FVec F S384x128 .f32 := Host.absf main_arg3
  let main_cst_4 : FVec F S_ .f32 := constant S_ .f32 0x7F800000#32
  let main_v15 : FVec F S384x128 .f32 := broadcastInDim S384x128 ![] bcast_S_S384x128 main_cst_4
  let main_v16 : IVec S384x128 1 := cmpf .olt main_v14 main_v15
  fn_part1 (F := F) main_arg4 main_arg5 main_arg6 main_arg7 main_arg8 main_v13 main_v16
-- ==== Kernel.lean ====
abbrev S262144x384 : Shape := ⟨2, ![262144, 384]⟩
abbrev S384 : Shape := ⟨1, ![384]⟩
abbrev S384x128 : Shape := ⟨2, ![384, 128]⟩
abbrev S128 : Shape := ⟨1, ![128]⟩
abbrev S128x128 : Shape := ⟨2, ![128, 128]⟩
abbrev S128x50 : Shape := ⟨2, ![128, 50]⟩
abbrev S50 : Shape := ⟨1, ![50]⟩
abbrev S1x384 : Shape := ⟨2, ![1, 384]⟩
abbrev S1x128 : Shape := ⟨2, ![1, 128]⟩
abbrev S1x50 : Shape := ⟨2, ![1, 50]⟩
abbrev S262144x50 : Shape := ⟨2, ![262144, 50]⟩
abbrev S4096x384 : Shape := ⟨2, ![4096, 384]⟩
abbrev S4096x50 : Shape := ⟨2, ![4096, 50]⟩
abbrev S4096 : Shape := ⟨1, ![4096]⟩
abbrev S4096x1 : Shape := ⟨2, ![4096, 1]⟩
abbrev S4096x128 : Shape := ⟨2, ![4096, 128]⟩

abbrev nBuf : Space → Nat
  | .hbm => 18
  | .vmem => 12
  | .smem => 0
  | _ => 0

abbrev bufTy : (tb : Table) → Fin (tcTables nBuf tb) → BufTy
  | .hbm, ⟨0, _⟩ => ⟨S262144x384, .f32⟩
  | .hbm, ⟨1, _⟩ => ⟨S384, .f32⟩
  | .hbm, ⟨2, _⟩ => ⟨S384, .f32⟩
  | .hbm, ⟨3, _⟩ => ⟨S384x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x50, .f32⟩
  | .hbm, ⟨8, _⟩ => ⟨S50, .f32⟩
  | .hbm, ⟨9, _⟩ => ⟨S1x384, .f32⟩
  | .hbm, ⟨10, _⟩ => ⟨S1x384, .f32⟩
  | .hbm, ⟨11, _⟩ => ⟨S1x128, .f32⟩
  | .hbm, ⟨12, _⟩ => ⟨S1x128, .f32⟩
  | .hbm, ⟨13, _⟩ => ⟨S1x50, .f32⟩
  | .hbm, ⟨14, _⟩ => ⟨S384x128, .bf16⟩
  | .hbm, ⟨15, _⟩ => ⟨S128x128, .bf16⟩
  | .hbm, ⟨16, _⟩ => ⟨S128x50, .bf16⟩
  | .hbm, ⟨17, _⟩ => ⟨S262144x50, .f32⟩
  | .local _ .vmem, ⟨0, _⟩ => ⟨S4096x384, .f32⟩
  | .local _ .vmem, ⟨1, _⟩ => ⟨S4096x384, .f32⟩
  | .local _ .vmem, ⟨2, _⟩ => ⟨S1x384, .f32⟩
  | .local _ .vmem, ⟨3, _⟩ => ⟨S1x384, .f32⟩
  | .local _ .vmem, ⟨4, _⟩ => ⟨S384x128, .bf16⟩
  | .local _ .vmem, ⟨5, _⟩ => ⟨S1x128, .f32⟩
  | .local _ .vmem, ⟨6, _⟩ => ⟨S128x128, .bf16⟩
  | .local _ .vmem, ⟨7, _⟩ => ⟨S1x128, .f32⟩
  | .local _ .vmem, ⟨8, _⟩ => ⟨S128x50, .bf16⟩
  | .local _ .vmem, ⟨9, _⟩ => ⟨S1x50, .f32⟩
  | .local _ .vmem, ⟨10, _⟩ => ⟨S4096x50, .f32⟩
  | .local _ .vmem, ⟨11, _⟩ => ⟨S4096x50, .f32⟩
  | _, _ => ⟨S262144x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S384x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x50 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x50 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4096x50 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  shapeCasts_S384_S1x384 : S384.ShapeCasts S1x384
  shapeCasts_S128_S1x128 : S128.ShapeCasts S1x128
  shapeCasts_S50_S1x50 : S50.ShapeCasts S1x50
  bitsLt_bf16_f32 : FTy.bits .bf16 < FTy.bits .f32
  inb_S4096x384_S4096x384_0_0 : ∀ a, (![0, 0] : Fin 2 → Nat) a + S4096x384.size a ≤ S4096x384.size a
  h_S4096x384 : 0 < S4096x384.numel
  reduces_S4096x384_S4096 : S4096x384.Reduces [1] S4096
  shapeCasts_S4096_S4096x1 : S4096.ShapeCasts S4096x1
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S4096x1_S4096x384 : S4096x1.Broadcasts S4096x384
  broadcasts_S1x384_S4096x384 : S1x384.Broadcasts S4096x384
  inb_S384x128_S384x128_0_0 : ∀ a, (![0, 0] : Fin 2 → Nat) a + S384x128.size a ≤ S384x128.size a
  h_S384x128 : 0 < S384x128.numel
  shapeCasts_S384x128_S384x128 : S384x128.ShapeCasts S384x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128x50_S128x50_0_0 : ∀ a, (![0, 0] : Fin 2 → Nat) a + S128x50.size a ≤ S128x50.size a
  h_S128x50 : 0 < S128x50.numel
  shapeCasts_S128x50_S128x50 : S128x50.ShapeCasts S128x50
  inb_S1x50_S1x50_0_0 : ∀ a, (![0, 0] : Fin 2 → Nat) a + S1x50.size a ≤ S1x50.size a
  h_S1x50 : 0 < S1x50.numel
  shapeCasts_S1x50_S1x50 : S1x50.ShapeCasts S1x50
  broadcasts_S1x50_S4096x50 : S1x50.Broadcasts S4096x50
  inb_S4096x50_S4096x50_0_0 : ∀ a, (![0, 0] : Fin 2 → Nat) a + S4096x50.size a ≤ S4096x50.size a
  h_S4096x50 : 0 < S4096x50.numel
  dot_S4096x384_S384x128_S4096x128_1_0_0_1_n_n_wf : DotDims.WF S4096x384 S384x128 S4096x128 [1] [0] [0] [1] [] []
  dot_S4096x128_S128x128_S4096x128_1_0_0_1_n_n_wf : DotDims.WF S4096x128 S128x128 S4096x128 [1] [0] [0] [1] [] []
  dot_S4096x128_S128x50_S4096x50_1_0_0_1_n_n_wf : DotDims.WF S4096x128 S128x50 S4096x50 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x384.size a ≤ S262144x384.size a
  hwx0_0 : ∀ i : grid0.Coords, EltTy.bits .f32 = 32 ∨ (Rect.block (s := S262144x384) S4096x384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x384.size a ≤ S1x384.size a
  hwx0_1 : ∀ i : grid0.Coords, EltTy.bits .f32 = 32 ∨ (Rect.block (s := S1x384) S1x384.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x384.size a ≤ S1x384.size a
  hwx0_2 : ∀ i : grid0.Coords, EltTy.bits .f32 = 32 ∨ (Rect.block (s := S1x384) S1x384.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S384x128.size a ≤ S384x128.size a
  hwx0_3 : ∀ i : grid0.Coords, EltTy.bits .bf16 = 32 ∨ (Rect.block (s := S384x128) S384x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x50.size a ≤ S128x50.size a
  hwx0_7 : ∀ i : grid0.Coords, EltTy.bits .bf16 = 32 ∨ (Rect.block (s := S128x50) S128x50.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x50.size a ≤ S1x50.size a
  hwx0_8 : ∀ i : grid0.Coords, EltTy.bits .f32 = 32 ∨ (Rect.block (s := S1x50) S1x50.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4096x50.size a ≤ S262144x50.size a
  hwx0_9 : ∀ i : grid0.Coords, EltTy.bits .f32 = 32 ∨ (Rect.block (s := S262144x50) S4096x50.size (cc0_transform_9 i) (hinb0_9 i)).WholeWords (EltTy.packing .f32)

variable [Facts₀]

def dot_S4096x384_S384x128_S4096x128_1_0_0_1_n_n : DotDims S4096x384 S384x128 S4096x128 where
  lhsContracting := [1]
  rhsContracting := [0]
  lhsNonContracting := [0]
  rhsNonContracting := [1]
  lhsBatch := []
  rhsBatch := []
  wf := dot_S4096x384_S384x128_S4096x128_1_0_0_1_n_n_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S4096x128_S128x50_S4096x50_1_0_0_1_n_n : DotDims S4096x128 S128x50 S4096x50 where
  lhsContracting := [1]
  rhsContracting := [0]
  lhsNonContracting := [0]
  rhsNonContracting := [1]
  lhsBatch := []
  rhsBatch := []
  wf := dot_S4096x128_S128x50_S4096x50_1_0_0_1_n_n_wf

abbrev win0_0 : Pipeline.Window sig grid0 :=
  Pipeline.Window.ofSpec (Memref.whole main_arg0) S4096x384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x384.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S384x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S128x50.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4) S1x50.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v8) S4096x50.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S262144x384 : Shape := ⟨2, ![262144, 384]⟩
abbrev S384 : Shape := ⟨1, ![384]⟩
abbrev S384x128 : Shape := ⟨2, ![384, 128]⟩
abbrev S128 : Shape := ⟨1, ![128]⟩
abbrev S128x128 : Shape := ⟨2, ![128, 128]⟩
abbrev S128x50 : Shape := ⟨2, ![128, 50]⟩
abbrev S50 : Shape := ⟨1, ![50]⟩
abbrev S_ : Shape := ⟨0, ![]⟩
abbrev S262144 : Shape := ⟨1, ![262144]⟩
abbrev S262144x1 : Shape := ⟨2, ![262144, 1]⟩
abbrev S1x384 : Shape := ⟨2, ![1, 384]⟩
abbrev S262144x128 : Shape := ⟨2, ![262144, 128]⟩
abbrev S1x128 : Shape := ⟨2, ![1, 128]⟩
abbrev S262144x50 : Shape := ⟨2, ![262144, 50]⟩
abbrev S1x50 : Shape := ⟨2, ![1, 50]⟩

abbrev nBuf : Space → Nat
  | .hbm => 56
  | .vmem => 0
  | .smem => 0
  | _ => 0

abbrev bufTy : (tb : Table) → Fin (tcTables nBuf tb) → BufTy
  | .hbm, ⟨0, _⟩ => ⟨S262144x384, .f32⟩
  | .hbm, ⟨1, _⟩ => ⟨S384, .f32⟩
  | .hbm, ⟨2, _⟩ => ⟨S384, .f32⟩
  | .hbm, ⟨3, _⟩ => ⟨S384x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x50, .f32⟩
  | .hbm, ⟨8, _⟩ => ⟨S50, .f32⟩
  | .hbm, ⟨9, _⟩ => ⟨S_, .f32⟩
  | .hbm, ⟨10, _⟩ => ⟨S262144, .f32⟩
  | .hbm, ⟨11, _⟩ => ⟨S262144x1, .f32⟩
  | .hbm, ⟨12, _⟩ => ⟨S_, .f32⟩
  | .hbm, ⟨13, _⟩ => ⟨S262144x1, .f32⟩
  | .hbm, ⟨14, _⟩ => ⟨S262144x1, .f32⟩
  | .hbm, ⟨15, _⟩ => ⟨S262144x384, .f32⟩
  | .hbm, ⟨16, _⟩ => ⟨S262144x384, .f32⟩
  | .hbm, ⟨17, _⟩ => ⟨S262144x384, .f32⟩
  | .hbm, ⟨18, _⟩ => ⟨S_, .f32⟩
  | .hbm, ⟨19, _⟩ => ⟨S262144, .f32⟩
  | .hbm, ⟨20, _⟩ => ⟨S262144x1, .f32⟩
  | .hbm, ⟨21, _⟩ => ⟨S_, .f32⟩
  | .hbm, ⟨22, _⟩ => ⟨S262144x1, .f32⟩
  | .hbm, ⟨23, _⟩ => ⟨S262144x1, .f32⟩
  | .hbm, ⟨24, _⟩ => ⟨S262144x384, .f32⟩
  | .hbm, ⟨25, _⟩ => ⟨S262144x384, .f32⟩
  | .hbm, ⟨26, _⟩ => ⟨S_, .f32⟩
  | .hbm, ⟨27, _⟩ => ⟨S262144x1, .f32⟩
  | .hbm, ⟨28, _⟩ => ⟨S262144x1, .f32⟩
  | .hbm, ⟨29, _⟩ => ⟨S262144x1, .f32⟩
  | .hbm, ⟨30, _⟩ => ⟨S262144x384, .f32⟩
  | .hbm, ⟨31, _⟩ => ⟨S262144x384, .f32⟩
  | .hbm, ⟨32, _⟩ => ⟨S1x384, .f32⟩
  | .hbm, ⟨33, _⟩ => ⟨S262144x384, .f32⟩
  | .hbm, ⟨34, _⟩ => ⟨S262144x384, .f32⟩
  | .hbm, ⟨35, _⟩ => ⟨S1x384, .f32⟩
  | .hbm, ⟨36, _⟩ => ⟨S262144x384, .f32⟩
  | .hbm, ⟨37, _⟩ => ⟨S262144x384, .f32⟩
  | .hbm, ⟨38, _⟩ => ⟨S262144x128, .f32⟩
  | .hbm, ⟨39, _⟩ => ⟨S1x128, .f32⟩
  | .hbm, ⟨40, _⟩ => ⟨S262144x128, .f32⟩
  | .hbm, ⟨41, _⟩ => ⟨S262144x128, .f32⟩
  | .hbm, ⟨42, _⟩ => ⟨S_, .f32⟩
  | .hbm, ⟨43, _⟩ => ⟨S262144x128, .f32⟩
  | .hbm, ⟨44, _⟩ => ⟨S262144x128, .f32⟩
  | .hbm, ⟨45, _⟩ => ⟨S262144x128, .f32⟩
  | .hbm, ⟨46, _⟩ => ⟨S1x128, .f32⟩
  | .hbm, ⟨47, _⟩ => ⟨S262144x128, .f32⟩
  | .hbm, ⟨48, _⟩ => ⟨S262144x128, .f32⟩
  | .hbm, ⟨49, _⟩ => ⟨S_, .f32⟩
  | .hbm, ⟨50, _⟩ => ⟨S262144x128, .f32⟩
  | .hbm, ⟨51, _⟩ => ⟨S262144x128, .f32⟩
  | .hbm, ⟨52, _⟩ => ⟨S262144x50, .f32⟩
  | .hbm, ⟨53, _⟩ => ⟨S1x50, .f32⟩
  | .hbm, ⟨54, _⟩ => ⟨S262144x50, .f32⟩
  | .hbm, ⟨55, _⟩ => ⟨S262144x50, .f32⟩
  | _, _ => ⟨S262144x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_3 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_call0_cst : Ref sig .tc := ⟨.hbm, 42, rfl⟩
abbrev main_call0_v0 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_call1_cst : Ref sig .tc := ⟨.hbm, 49, rfl⟩
abbrev main_call1_v0 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩

abbrev nD : Nat := 1
abbrev τ : Topo := Topo.v7x

variable {F : FTy → Type} [FloatOps F]

class Facts₀ : Prop where
  reducesTo_S262144x384_S262144_d1 : S262144x384.ReducesTo [1] S262144
  h_S_ : 0 < S_.numel
  bcast_S262144_S262144x1_0 : S262144.BroadcastsInDim S262144x1 (![0] : Fin 1 → Fin S262144x1.rank)
  bcast_S_S262144x1 : S_.BroadcastsInDim S262144x1 (![] : Fin 0 → Fin S262144x1.rank)
  bcast_S262144x1_S262144x384_0_1 : S262144x1.BroadcastsInDim S262144x384 (![0, 1] : Fin 2 → Fin S262144x384.rank)
  bcast_S384_S1x384_1 : S384.BroadcastsInDim S1x384 (![1] : Fin 1 → Fin S1x384.rank)
  bcast_S1x384_S262144x384_0_1 : S1x384.BroadcastsInDim S262144x384 (![0, 1] : Fin 2 → Fin S262144x384.rank)
  bcast_S128_S1x128_1 : S128.BroadcastsInDim S1x128 (![1] : Fin 1 → Fin S1x128.rank)
  bcast_S1x128_S262144x128_0_1 : S1x128.BroadcastsInDim S262144x128 (![0, 1] : Fin 2 → Fin S262144x128.rank)
  bcast_S_S262144x128 : S_.BroadcastsInDim S262144x128 (![] : Fin 0 → Fin S262144x128.rank)
  bcast_S50_S1x50_1 : S50.BroadcastsInDim S1x50 (![1] : Fin 1 → Fin S1x50.rank)
  bcast_S1x50_S262144x50_0_1 : S1x50.BroadcastsInDim S262144x50 (![0, 1] : Fin 2 → Fin S262144x50.rank)
  dot_S262144x384_S384x128_S262144x128_1_0_0_1_n_n_wf : DotDims.WF S262144x384 S384x128 S262144x128 [1] [0] [0] [1] [] []
  dot_S262144x128_S128x128_S262144x128_1_0_0_1_n_n_wf : DotDims.WF S262144x128 S128x128 S262144x128 [1] [0] [0] [1] [] []
  dot_S262144x128_S128x50_S262144x50_1_0_0_1_n_n_wf : DotDims.WF S262144x128 S128x50 S262144x50 [1] [0] [0] [1] [] []

variable [Facts₀]

def dot_S262144x384_S384x128_S262144x128_1_0_0_1_n_n : DotDims S262144x384 S384x128 S262144x128 where
  lhsContracting := [1]
  rhsContracting := [0]
  lhsNonContracting := [0]
  rhsNonContracting := [1]
  lhsBatch := []
  rhsBatch := []
  wf := dot_S262144x384_S384x128_S262144x128_1_0_0_1_n_n_wf
def dot_S262144x128_S128x128_S262144x128_1_0_0_1_n_n : DotDims S262144x128 S128x128 S262144x128 where
  lhsContracting := [1]
  rhsContracting := [0]
  lhsNonContracting := [0]
  rhsNonContracting := [1]
  lhsBatch := []
  rhsBatch := []
  wf := dot_S262144x128_S128x128_S262144x128_1_0_0_1_n_n_wf
def dot_S262144x128_S128x50_S262144x50_1_0_0_1_n_n : DotDims S262144x128 S128x50 S262144x50 where
  lhsContracting := [1]
  rhsContracting := [0]
  lhsNonContracting := [0]
  rhsNonContracting := [1]
  lhsBatch := []
  rhsBatch := []
  wf := dot_S262144x128_S128x50_S262144x50_1_0_0_1_n_n_wf

class Facts : Prop extends Facts₀ where

variable [Facts]
-- ==== Proof.LibRealEntries.lean ====
/-
  Entries that are real numbers, and the array operations that keep them so (at the ideal instance, where a float is
  an extended real). A sum, a product, a maximum and a finite sum of real numbers are real; hence entrywise sums,
  products and maxima of arrays with real entries, their broadcasts, a gather from such an array (each result entry
  is an entry of the operand), an accumulating scatter of such updates into such an operand (each entry gains
  finitely many real updates), and a contraction of two such arrays (finite sums of real products from zero) all
  have real entries. The reciprocal square root of an extended real that is at least one is real (it is 0 at +∞), so a
  reciprocal square root of anything clamped below at one is real, whatever was clamped.
-/
import Idealize.ShloMosaic.PureOps.Ideal.Laws

noncomputable section

namespace Cert.LibRealEntries

open Idealize.ShloMosaic Idealize.ShloMosaic.TcCoe

/-- An extended real that is a real number. -/
def IsReal (x : EReal) : Prop := ∃ y : ℝ, x = (y : EReal)

theorem IsReal.zero : IsReal 0 := ⟨0, rfl⟩
theorem IsReal.one : IsReal 1 := ⟨1, rfl⟩
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.max {x y : EReal} (hx : IsReal x) (hy : IsReal y) : IsReal (max x y) := by
  obtain ⟨a, rfl⟩ := hx; obtain ⟨b, rfl⟩ := hy; exact ⟨Max.max a b, (EReal.coe_strictMono.monotone.map_max).symm⟩
theorem IsReal.sum {ι : Type} (s : Finset ι) (f : ι → EReal) (h : ∀ i ∈ s, IsReal (f i)) : IsReal (∑ i ∈ s, f i) :=
  Finset.sum_induction f IsReal (fun _ _ => IsReal.add) IsReal.zero h

/-- The reciprocal square root of an extended real that is at least one is a real number. -/
theorem isReal_rsqrt_of_one_le {x : EReal} (h : 1 ≤ x) : IsReal (Ideal.rsqrt x) := by
  induction x using EReal.rec with
  | bot =>
    have hlt : (⊥ : EReal) < 1 := by exact_mod_cast EReal.bot_lt_coe 1
    exact absurd h (not_le.mpr hlt)
  | top => exact ⟨0, rfl⟩
  | coe r =>
    have hr : (1 : ℝ) ≤ r := by exact_mod_cast h
    show IsReal (if r < 0 then ⊥ else if r = 0 then ⊤ else (((Real.sqrt r)⁻¹ : ℝ) : EReal))
    rw [if_neg (by linarith), if_neg (by linarith)]
    exact ⟨_, rfl⟩

theorem isReal_zero_word : IsReal (Ideal.ofBits .f32 0x00000000#32) := by
  rw [Ideal.ofBits_zero_f32]; exact IsReal.zero

/-! ## The operations keep entries real (any shapes) -/

section Generic
variable {s t si u sl sr so : Shape} {w : Nat}

theorem real_maximumf (a b : FVec Ideal s .f32) (ha : ∀ i, IsReal (a i)) (hb : ∀ i, IsReal (b i)) (i : s.Idx) :
    IsReal (maximumf a b i) := (ha i).max (hb i)
theorem real_addf (a b : FVec Ideal s .f32) (ha : ∀ i, IsReal (a i)) (hb : ∀ i, IsReal (b i)) (i : s.Idx) :
    IsReal (addf a b i) := (ha i).add (hb i)
theorem real_mulf (a b : FVec Ideal s .f32) (ha : ∀ i, IsReal (a i)) (hb : ∀ i, IsReal (b i)) (i : s.Idx) :
    IsReal (mulf a b i) := (ha i).mul (hb i)
theorem real_bcast (dims : Fin s.rank → Fin t.rank) (h : s.BroadcastsInDim t dims) (x : FVec Ideal s .f32)
    (hx : ∀ i, IsReal (x i)) (j : t.Idx) : IsReal (broadcastInDim t dims h x j) := hx _
theorem real_gather (d : GatherDims s si t) (x : FVec Ideal s .f32) (idx : IVec si w) (hx : ∀ i, IsReal (x i)) (j : t.Idx) :
    IsReal (Host.gather d x idx j) := hx _
theorem real_scatterAdd (d : ScatterDims s si u) (x : FVec Ideal s .f32) (idx : IVec si w) (upd : FVec Ideal u .f32)
    (hx : ∀ i, IsReal (x i)) (hu : ∀ j, IsReal (upd j)) (i : s.Idx) : IsReal (Host.scatterAdd d x idx upd i) :=
  (hx i).add (IsReal.sum _ _ fun j _ => hu j)
theorem real_dot (d : DotDims sl sr so) (prec : Option ContractPrecision) (l : FVec Ideal sl .f32) (r : FVec Ideal sr .f32)
    (hl : ∀ i, IsReal (l i)) (hr : ∀ i, IsReal (r i)) (j : so.Idx) : IsReal (Host.dotGeneral d prec l r j) :=
  IsReal.zero.add (IsReal.sum _ _ fun k _ => (hl _).mul (hr _))
/-- A reciprocal square root of a value clamped below at one. -/
theorem real_rsqrt_clamp (one y : FVec Ideal s .f32) (h1 : ∀ i, one i = 1) (i : s.Idx) :
    IsReal (Host.rsqrt (maximumf one y) i) := by
  show IsReal (Ideal.rsqrt (Max.max (one i) (y i)))
  rw [h1 i]; exact isReal_rsqrt_of_one_le (le_max_left _ _)

end Generic

end Cert.LibRealEntries

end
-- ==== Proof.LibVariance.lean ====
import Idealize.ShloMosaic.PureOps.Ideal
import Mathlib.Tactic.FieldSimp
import Mathlib.Tactic.Ring
import Mathlib.Tactic.NormNum

/-!
# The two forms of a population variance agree on real samples

For samples `f r` that are all real numbers and a count `N` equal to the number of samples,
the mean of the squares minus the square of the mean is the mean of the squared deviations
from the mean:  `(Σ f²)/N − ((Σ f)/N)² = (Σ (f − (Σ f)/N)²)/N`.
On the extended reals the two sides differ when a sample is infinite, so the hypothesis that
every sample is real is needed.  Division is the extended-real division `Ideal.div`; by a nonzero
real it is the product with the reciprocal.
-/

namespace Cert.LibVariance

open Idealize.ShloMosaic

/-- The coercion of reals into the extended reals commutes with finite sums. -/
theorem coe_finset_sum {ι : Type*} (s : Finset ι) (x : ι → ℝ) :
    (∑ r ∈ s, ((x r : ℝ) : EReal)) = ((∑ r ∈ s, x r : ℝ) : EReal) := by
  classical
  induction s using Finset.induction_on with
  | empty => simp
  | insert a s ha ih => rw [Finset.sum_insert ha, Finset.sum_insert ha, ih, EReal.coe_add]

/-- The real identity: with `m = s/N` the mean of `N` samples,
    `(Σ x²)/N − m² = (Σ (x − m)²)/N`. -/
theorem real_variance {n : ℕ} (x : Fin n → ℝ) (N : ℝ) (hN : N = (n : ℝ)) (hn : N ≠ 0) (m : ℝ)
    (hm : m = (∑ r, x r) * (1 / N)) :
    (∑ r, x r * x r) * (1 / N) - m * m = (∑ r, (x r - m) * (x r - m)) * (1 / N) := by
  have hs : (∑ r, x r) = N * m := by rw [hm]; field_simp
  have hsq : ∀ r, (x r - m) * (x r - m) = x r * x r - 2 * m * x r + m * m := fun r => by ring
  have hsum : (∑ r, (x r - m) * (x r - m)) = (∑ r, x r * x r) - 2 * m * (∑ r, x r) + N * (m * m) := by
    simp only [hsq, Finset.sum_add_distrib, Finset.sum_sub_distrib, ← Finset.mul_sum,
      Finset.sum_const, Finset.card_univ, Fintype.card_fin, nsmul_eq_mul, hN]
    ring
  rw [hsum, hs]
  field_simp
  ring

/-- The mean of the squares minus the square of the mean is the mean of the squared deviations,
    for real samples and `N` the (nonzero) number of samples. -/
theorem variance_law {n : ℕ} (f : Fin n → EReal) (hf : ∀ r, ∃ x : ℝ, f r = (x : EReal)) (N : ℝ) (hN : N = (n : ℝ)) (hn : N ≠ 0) :
    Ideal.div (∑ r, f r * f r) (N : EReal) - Ideal.div (∑ r, f r) (N : EReal) * Ideal.div (∑ r, f r) (N : EReal)
      = Ideal.div (∑ r, (f r - Ideal.div (∑ r, f r) (N : EReal)) * (f r - Ideal.div (∑ r, f r) (N : EReal))) (N : EReal) := by
  choose x hx using hf
  obtain rfl : f = fun r => ((x r : ℝ) : EReal) := funext hx
  simp only [Ideal.div_coe hn]
  -- the sum of the samples and the mean, as reals
  have h1 : (∑ r, ((x r : ℝ) : EReal)) = ((∑ r, x r : ℝ) : EReal) := coe_finset_sum _ _
  rw [h1]
  obtain ⟨m, hm⟩ : ∃ m : ℝ, m = (∑ r, x r) * (1 / N) := ⟨_, rfl⟩
  have hmE : ((∑ r, x r : ℝ) : EReal) * ((1 / N : ℝ) : EReal) = (m : EReal) := by
    rw [hm, EReal.coe_mul]
  rw [hmE]
  -- the sum of the squares and the sum of the squared deviations, as reals
  have h2 : (∑ r, ((x r : ℝ) : EReal) * ((x r : ℝ) : EReal)) = ((∑ r, x r * x r : ℝ) : EReal) := by
    simp only [← EReal.coe_mul]; exact coe_finset_sum _ _
  have h3 : (∑ r, (((x r : ℝ) : EReal) - (m : EReal)) * (((x r : ℝ) : EReal) - (m : EReal)))
      = ((∑ r, (x r - m) * (x r - m) : ℝ) : EReal) := by
    simp only [← EReal.coe_sub, ← EReal.coe_mul]; exact coe_finset_sum _ _
  rw [h2, h3, ← EReal.coe_mul, ← EReal.coe_mul, ← EReal.coe_mul, ← EReal.coe_sub]
  exact congrArg _ (real_variance x N hN hn m hm)

/-- The single-precision word `0x47C35000` is the number 100000. -/
theorem ofBits_1e5 : Ideal.ofBits .f32 0x47C35000#32 = ((100000 : ℝ) : EReal) := by
  simp [Ideal.ofBits, Ideal.ieee, -EReal.coe_mul]; norm_num

end Cert.LibVariance
-- ==== Proof.LibLayerNorm.lean ====
/-
  LayerNorm of one row in its two usual arrangements, over the extended reals.

  For a row x of n entries, a count word cN and a stabiliser cE, with mu = (sum x) / cN :
    * moments:  var = (sum x^2) / cN - mu^2,      out_k = x_k * (r * s_k) + (b_k - mu * (r * s_k)),
    * centred:  var = (sum (x - mu)^2) / cN,      out_k = (x_k - mu) * r * s_k + b_k,
  where r = rsqrt (var + cE).  The first is what a fused one-pass kernel computes (scale and shift folded into one
  affine map of x), the second what a textbook reference computes.

  When cN is the number n of entries (n nonzero), cE is a positive real, and the row, the scale and the bias are real
  numbers, the two agree entry by entry: the two variances are one number (the population-variance identity), it is a
  nonnegative real, so var + cE is a positive real and its reciprocal square root is real, and the outputs differ by
  distributing r * s_k over x_k - mu.  At an infinite entry they do differ, which is why the entries must be real.
  Generic in n, cN and cE; no program is imported.
-/
import Idealize.ShloMosaic.PureOps.Ideal.Laws
import proofs.«143290_j18176301597146_2_alg».proof.Proof.LibVariance
import proofs.«143290_j18176301597146_2_alg».proof.Proof.LibRealEntries

noncomputable section

open scoped BigOperators

namespace Cert.LibLayerNorm

open Idealize.ShloMosaic Cert.LibRealEntries

variable {n : ℕ}

/-- The mean of a row: its sum over the count. -/
def mean (cN : EReal) (x : Fin n → EReal) : EReal := Ideal.div (∑ k, x k) cN

/-- The variance as mean of squares minus squared mean. -/
def varMoments (cN : EReal) (x : Fin n → EReal) : EReal := Ideal.div (∑ k, x k * x k) cN - mean cN x * mean cN x

/-- The variance as mean of squared deviations. -/
def varCentred (cN : EReal) (x : Fin n → EReal) : EReal :=
  Ideal.div (∑ k, (x k - mean cN x) * (x k - mean cN x)) cN

/-- The normalised row with scale and shift folded into one affine map of x. -/
def normMoments (cN cE : EReal) (x s b : Fin n → EReal) (k : Fin n) : EReal :=
  x k * (Ideal.rsqrt (varMoments cN x + cE) * s k) + (b k - mean cN x * (Ideal.rsqrt (varMoments cN x + cE) * s k))

/-- The normalised row as centre, scale by the reciprocal deviation, scale, shift. -/
def normCentred (cN cE : EReal) (x s b : Fin n → EReal) (k : Fin n) : EReal :=
  (x k - mean cN x) * Ideal.rsqrt (varCentred cN x + cE) * s k + b k

variable (cN cE : EReal) (hN : cN = (((n : ℕ) : ℝ) : EReal)) (hn : ((n : ℕ) : ℝ) ≠ 0)

include hN hn in
/-- The two variances of a real row are one number. -/
theorem varMoments_eq_varCentred (x : Fin n → EReal) (hx : ∀ k, IsReal (x k)) : varMoments cN x = varCentred cN x := by
  unfold varMoments varCentred mean
  rw [hN]
  exact Cert.LibVariance.variance_law x hx (n : ℝ) rfl hn

include hN hn in
/-- The mean of a real row is a real number. -/
theorem isReal_mean (x : Fin n → EReal) (hx : ∀ k, IsReal (x k)) : IsReal (mean cN x) := by
  unfold mean
  rw [hN, Ideal.div_coe hn]
  exact (IsReal.sum _ _ fun k _ => hx k).mul ⟨_, rfl⟩

include hN hn in
/-- The centred variance of a real row is a nonnegative real number. -/
theorem varCentred_nonneg (x : Fin n → EReal) (hx : ∀ k, IsReal (x k)) : ∃ v : ℝ, 0 ≤ v ∧ varCentred cN x = (v : EReal) := by
  obtain ⟨m, hm⟩ := isReal_mean cN hN hn x hx
  choose y hy using hx
  unfold varCentred
  rw [hm, hN, Ideal.div_coe hn]
  have h : (∑ k, (x k - (m : EReal)) * (x k - (m : EReal))) = ((∑ k, (y k - m) * (y k - m) : ℝ) : EReal) := by
    rw [← Cert.LibVariance.coe_finset_sum]
    refine Finset.sum_congr rfl fun k _ => ?_
    rw [hy k, ← EReal.coe_sub, ← EReal.coe_mul]
  rw [h, ← EReal.coe_mul]
  exact ⟨_, mul_nonneg (Finset.sum_nonneg fun k _ => mul_self_nonneg _) (one_div_nonneg.mpr (Nat.cast_nonneg n)), rfl⟩

include hN hn in
/-- On a real row with real scale and bias, and a positive real stabiliser, the two arrangements agree. -/
theorem normMoments_eq_normCentred (hE : ∃ e : ℝ, 0 < e ∧ cE = (e : EReal)) (x s b : Fin n → EReal)
    (hx : ∀ k, IsReal (x k)) (hs : ∀ k, IsReal (s k)) (hb : ∀ k, IsReal (b k)) :
    normMoments cN cE x s b = normCentred cN cE x s b := by
  funext k
  unfold normMoments normCentred
  rw [varMoments_eq_varCentred cN hN hn x hx]
  obtain ⟨v, hv0, hv⟩ := varCentred_nonneg cN hN hn x hx
  obtain ⟨e, he0, he⟩ := hE
  obtain ⟨m, hm⟩ := isReal_mean cN hN hn x hx
  obtain ⟨xk, hxk⟩ := hx k
  obtain ⟨sk, hsk⟩ := hs k
  obtain ⟨bk, hbk⟩ := hb k
  have hpos : 0 < v + e := by linarith
  rw [hv, he, hm, hxk, hsk, hbk, ← EReal.coe_add, Ideal.rsqrt_coe, if_neg (not_lt.mpr hpos.le), if_neg hpos.ne']
  simp only [← EReal.coe_mul, ← EReal.coe_sub, ← EReal.coe_add]
  exact congrArg _ (by ring)

end Cert.LibLayerNorm

end
-- ==== Proof.Head.lean ====
/-
  The network both programs compute, one row at a time, over the extended reals.

  A row x of 384 entries is normalised (LayerNorm with scale s and bias b), then passed through three dense layers
  (384 -> 128 -> 128 -> 50) with the maximum with zero after the first two.  An output entry depends on ONE row of the
  input only, so everything here is a function of a row.

  The normalisation is spelt in two arrangements.  With mu = (sum x)/384 :
    * moments:  var = (sum x^2)/384 - mu^2,          out_k = x_k * (r * s_k) + (b_k - mu * (r * s_k)),
    * centred:  var = (sum (x - mu)^2)/384,          out_k = (x_k - mu) * r * s_k + b_k,
  where r = rsqrt (var + eps).  On a row of real numbers with real scale and bias the two variances are one number
  (the population-variance identity), it is nonnegative, so var + eps is a positive real, r is a real number, and the
  two outputs differ by distributing r * s_k over x_k - mu.  At an infinite entry the arrangements do differ, which is
  why the rows are required to be real.
-/
import Idealize.ShloMosaic.PureOps.Ideal.Laws
import Idealize.ShloMosaic.Lib.ValueIdx
import proofs.«143290_j18176301597146_2_alg».proof.Proof.LibRealEntries
import proofs.«143290_j18176301597146_2_alg».proof.Proof.LibLayerNorm

noncomputable section

open scoped BigOperators

namespace Cert.Head

open Idealize.ShloMosaic Idealize.ShloMosaic.ValueIdx Cert.LibRealEntries

/-- The number of entries of a row, as the single-precision word both programs divide by. -/
def cN : EReal := Ideal.ofBits .f32 0x43C00000#32
/-- The stabiliser added to the variance, as the word both programs spell. -/
def cEps : EReal := Ideal.ofBits .f32 0x3727C5AC#32

/-- The word 0x43C00000 is the number 384. -/
theorem cN_eq : cN = ((384 : ℝ) : EReal) := by
  simp [cN, Ideal.ofBits, Ideal.ieee, -EReal.coe_mul] <;> norm_num

/-- The word 0x3727C5AC is a positive real number (10995116 * 2^-40, about 1e-5). -/
theorem cEps_pos : ∃ e : ℝ, 0 < e ∧ cEps = (e : EReal) := by
  refine ⟨10995116 * (2 : ℝ) ^ (-40 : ℤ), by positivity, ?_⟩
  simp [cEps, Ideal.ofBits, Ideal.ieee, -EReal.coe_mul] <;> norm_num

/-! ## LayerNorm of a row, in the two arrangements -/

/-- The mean of a row. -/
def mean (x : Fin 384 → EReal) : EReal := Ideal.div (∑ k, x k) cN

/-- The variance as mean of squares minus squared mean. -/
def varMoments (x : Fin 384 → EReal) : EReal := Ideal.div (∑ k, x k * x k) cN - mean x * mean x

/-- The variance as mean of squared deviations. -/
def varCentred (x : Fin 384 → EReal) : EReal := Ideal.div (∑ k, (x k - mean x) * (x k - mean x)) cN

/-- The normalised row with scale and shift folded into one affine map of x. -/
def normMoments (x s b : Fin 384 → EReal) (k : Fin 384) : EReal :=
  x k * (Ideal.rsqrt (varMoments x + cEps) * s k) + (b k - mean x * (Ideal.rsqrt (varMoments x + cEps) * s k))

/-- The normalised row as centre, scale by the reciprocal deviation, scale, shift. -/
def normCentred (x s b : Fin 384 → EReal) (k : Fin 384) : EReal :=
  (x k - mean x) * Ideal.rsqrt (varCentred x + cEps) * s k + b k

/-! ## The dense layers -/

/-- One output of a dense layer: the row against column j of the weights, plus the bias. -/
def dense {K B : ℕ} (a : Fin K → EReal) (w : (⟨2, ![K, B]⟩ : Shape).Idx → EReal) (bias : Fin B → EReal) (j : Fin B) : EReal :=
  (∑ k, a k * w (ix2 k j)) + bias j

/-- The maximum with the zero word. -/
def relu (v : EReal) : EReal := max v (Ideal.ofBits .f32 0x00000000#32)

/-- The three layers after the normalisation, at output entry c. -/
def layers (a : Fin 384 → EReal)
    (w0 : (⟨2, ![384, 128]⟩ : Shape).Idx → EReal) (b0 : Fin 128 → EReal)
    (w1 : (⟨2, ![128, 128]⟩ : Shape).Idx → EReal) (b1 : Fin 128 → EReal)
    (w2 : (⟨2, ![128, 50]⟩ : Shape).Idx → EReal) (b2 : Fin 50 → EReal) (c : Fin 50) : EReal :=
  dense (fun j => relu (dense (fun i => relu (dense a w0 b0 i)) w1 b1 j)) w2 b2 c

/-! ## The two arrangements agree on real rows -/

/-- On a real row with real scale and bias the two arrangements of the normalisation agree, entry by entry: the
    general law at 384 entries, the count word 384 and the stabiliser word. -/
theorem normMoments_eq_normCentred (x s b : Fin 384 → EReal) (hx : ∀ k, IsReal (x k)) (hs : ∀ k, IsReal (s k))
    (hb : ∀ k, IsReal (b k)) : normMoments x s b = normCentred x s b :=
  Cert.LibLayerNorm.normMoments_eq_normCentred (n := 384) cN cEps (by rw [cN_eq]; norm_num) (by norm_num) cEps_pos x s b
    hx hs hb

/-- Hence the whole network's output entry is the same whichever arrangement normalises the row. -/
theorem layers_normMoments_eq (x s b : Fin 384 → EReal) (hx : ∀ k, IsReal (x k)) (hs : ∀ k, IsReal (s k))
    (hb : ∀ k, IsReal (b k))
    (w0 : (⟨2, ![384, 128]⟩ : Shape).Idx → EReal) (b0 : Fin 128 → EReal)
    (w1 : (⟨2, ![128, 128]⟩ : Shape).Idx → EReal) (b1 : Fin 128 → EReal)
    (w2 : (⟨2, ![128, 50]⟩ : Shape).Idx → EReal) (b2 : Fin 50 → EReal) (c : Fin 50) :
    layers (normMoments x s b) w0 b0 w1 b1 w2 b2 c = layers (normCentred x s b) w0 b0 w1 b1 w2 b2 c := by
  rw [normMoments_eq_normCentred x s b hx hs hb]

/-! ## The whole result array as one function of the argument arrays -/

/-- Entry (r, c) of the result: the network of row r of the input, normalised in the moments arrangement. -/
def wholeMoments {N : ℕ} (x : (⟨2, ![N, 384]⟩ : Shape).Idx → EReal) (s b : (⟨1, ![384]⟩ : Shape).Idx → EReal)
    (w0 : (⟨2, ![384, 128]⟩ : Shape).Idx → EReal) (b0 : (⟨1, ![128]⟩ : Shape).Idx → EReal)
    (w1 : (⟨2, ![128, 128]⟩ : Shape).Idx → EReal) (b1 : (⟨1, ![128]⟩ : Shape).Idx → EReal)
    (w2 : (⟨2, ![128, 50]⟩ : Shape).Idx → EReal) (b2 : (⟨1, ![50]⟩ : Shape).Idx → EReal) :
    (⟨2, ![N, 50]⟩ : Shape).Idx → EReal :=
  fun i => layers (normMoments (fun k => x (ix2 (i 0) k)) (fun k => s (ix1 k)) (fun k => b (ix1 k)))
    w0 (fun n => b0 (ix1 n)) w1 (fun n => b1 (ix1 n)) w2 (fun n => b2 (ix1 n)) (i 1)

/-- The same with the row normalised in the centred arrangement. -/
def wholeCentred {N : ℕ} (x : (⟨2, ![N, 384]⟩ : Shape).Idx → EReal) (s b : (⟨1, ![384]⟩ : Shape).Idx → EReal)
    (w0 : (⟨2, ![384, 128]⟩ : Shape).Idx → EReal) (b0 : (⟨1, ![128]⟩ : Shape).Idx → EReal)
    (w1 : (⟨2, ![128, 128]⟩ : Shape).Idx → EReal) (b1 : (⟨1, ![128]⟩ : Shape).Idx → EReal)
    (w2 : (⟨2, ![128, 50]⟩ : Shape).Idx → EReal) (b2 : (⟨1, ![50]⟩ : Shape).Idx → EReal) :
    (⟨2, ![N, 50]⟩ : Shape).Idx → EReal :=
  fun i => layers (normCentred (fun k => x (ix2 (i 0) k)) (fun k => s (ix1 k)) (fun k => b (ix1 k)))
    w0 (fun n => b0 (ix1 n)) w1 (fun n => b1 (ix1 n)) w2 (fun n => b2 (ix1 n)) (i 1)

/-- With a real input, scale and bias the two are one array. -/
theorem wholeMoments_eq_wholeCentred {N : ℕ} (x : (⟨2, ![N, 384]⟩ : Shape).Idx → EReal)
    (s b : (⟨1, ![384]⟩ : Shape).Idx → EReal) (hx : ∀ i, IsReal (x i)) (hs : ∀ i, IsReal (s i)) (hb : ∀ i, IsReal (b i))
    (w0 : (⟨2, ![384, 128]⟩ : Shape).Idx → EReal) (b0 : (⟨1, ![128]⟩ : Shape).Idx → EReal)
    (w1 : (⟨2, ![128, 128]⟩ : Shape).Idx → EReal) (b1 : (⟨1, ![128]⟩ : Shape).Idx → EReal)
    (w2 : (⟨2, ![128, 50]⟩ : Shape).Idx → EReal) (b2 : (⟨1, ![50]⟩ : Shape).Idx → EReal) :
    wholeMoments x s b w0 b0 w1 b1 w2 b2 = wholeCentred x s b w0 b0 w1 b1 w2 b2 :=
  funext fun i => layers_normMoments_eq _ _ _ (fun k => hx _) (fun k => hs _) (fun k => hb _) _ _ _ _ _ _ _

end Cert.Head

end
-- ==== Proof.LibKeepdims.lean ====
/-
  Three layout facts a row reduction with kept dimensions meets, each read at an entry given by its coordinates:
  a vector of per-row values viewed as a one-column array, a one-column array spread across the columns of each
  row, and the sum along the second axis of a two-axis array.  They hold for arrays of any extents `[a]`,
  `[a, 1]`, `[a, b]` and, the first two, for entries of any type.
-/
import Idealize.ShloMosaic.Lib.Pipeline.Value
import Idealize.ShloMosaic.Lib.ValueIdx
import Idealize.ShloMosaic.PureOps.Ideal.Laws

noncomputable section

open scoped BigOperators

namespace Cert.LibKeepdims

open Idealize.ShloMosaic Idealize.ShloMosaic.ValueIdx

variable {α : Type}

/-- An `[a]` array cast to `[a, 1]` reads, at `(i, u)`, the operand at `i`: both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(i, j)`, the operand's one entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- Over the extended reals, the sum of a `[a, b]` array along its second axis, started from the zero word, is at
    row `i` the sum over the columns `k` of the entries `(i, k)`. -/
theorem multiReduction_add_rows_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (i : Fin a) :
    multiReduction .add [1] ⟨1, ![a]⟩ src 0x00000000#32 h hφ hacc (ix1 i) = ∑ k : Fin b, src (ix2 i k) := by
  refine (Ideal.multiReduction_add_single src 0x00000000#32 h hφ hacc (ix1 i)).trans ?_
  refine Finset.sum_congr rfl fun k _ => congrArg src ?_
  funext ax
  apply Fin.ext
  match ax with
  | ⟨0, _⟩ => rfl
  | ⟨1, _⟩ => rfl

end Cert.LibKeepdims

end
-- ==== Proof.LibRowLayout.lean ====
/-
  Two layout facts about one-row arrays, each read at an entry given by its coordinates: a one-row array `[1, b]`
  spread over the rows of an `[a, b]` array, and a vector `[b]` viewed as a one-row array `[1, b]`.  They hold for
  any extents and for entries of any type.  (The companions for one-column arrays are the keepdims facts.)
-/
import Idealize.ShloMosaic.Lib.Pipeline.Value
import Idealize.ShloMosaic.Lib.ValueIdx

noncomputable section

namespace Cert.LibRowLayout

open Idealize.ShloMosaic Idealize.ShloMosaic.ValueIdx

/-- A `[1, b]` row spread over `a` rows reads, at `(i, j)`, the row's entry `j`. -/
theorem broadcastTo_1b_ab_apply {α : Type} {a b : ℕ} (v : (⟨2, ![1, b]⟩ : Shape).Idx → α)
    (h : (⟨2, ![1, b]⟩ : Shape).Broadcasts ⟨2, ![a, b]⟩) (i : Fin a) (j : Fin b) :
    broadcastTo ⟨2, ![a, b]⟩ v h (ix2 i j) = v (ix2 (0 : Fin 1) j) := by
  refine broadcastTo_apply v h (ix2 i j) (ix2 (0 : Fin 1) j) fun ax => ?_
  match ax with
  | ⟨0, _⟩ => rfl
  | ⟨1, _⟩ =>
    show j.val = if b = 1 then 0 else j.val
    split
    · have := j.isLt; omega
    · rfl

/-- A `[b]` vector viewed as a one-row array reads, at `(u, j)`, the vector's entry `j`: both sit at row-major position `j`. -/
theorem shapeCast_b_1b_apply {α : Type} {b : ℕ} (x : (⟨1, ![b]⟩ : Shape).Idx → α) (h : (⟨1, ![b]⟩ : Shape).ShapeCasts ⟨2, ![1, b]⟩)
    (u : Fin 1) (j : Fin b) : shapeCast ⟨2, ![1, b]⟩ x h (ix2 u j) = x (ix1 j) :=
  shapeCast_apply x h _ _ (by
    have hu : u.val = 0 := by omega
    rw [Shape.rowMajor_val_two, Shape.rowMajor_val_one]
    show j.val = u.val * b + j.val
    rw [hu, Nat.zero_mul, Nat.zero_add])

end Cert.LibRowLayout

end
-- ==== Proof.LibPlainDot.lean ====
/-
  A plain matrix product read at an entry.

  A contraction whose dimension numbers say "the second axis of an [A, K] operand against the first axis of a [K, B]
  operand, no batch axis, result [A, B]" reads its left operand at (row of the result, k) and its right operand at
  (k, column of the result), `k` ranging over the one contracted axis.  So the sum over the contraction index of the
  operands' products, at result entry (p, c), is `Σ_{k < K} l (p, k) · r (k, c)`; a `tpu.matmul` into the zero splat
  is exactly that sum at the ideal values.  Generic in A, K, B and in the record: the hypotheses are the record's six lists.
-/
import Idealize.ShloMosaic.PureOps.Ideal.Laws
import Idealize.ShloMosaic.Lib.ValueIdx

noncomputable section

namespace Cert.LibPlainDot

open Idealize.ShloMosaic Idealize.ShloMosaic.ValueIdx

/-- The dimension numbers of a plain product `[A, K] × [K, B] → [A, B]`. -/
structure Plain {A K B : Nat} (D : DotDims ⟨2, ![A, K]⟩ ⟨2, ![K, B]⟩ ⟨2, ![A, B]⟩) : Prop where
  lc : D.lhsContracting = [1]
  rc : D.rhsContracting = [0]
  ln : D.lhsNonContracting = [0]
  rn : D.rhsNonContracting = [1]
  lb : D.lhsBatch = []
  rb : D.rhsBatch = []

variable {A K B : Nat} {D : DotDims ⟨2, ![A, K]⟩ ⟨2, ![K, B]⟩ ⟨2, ![A, B]⟩}

/-- One axis is contracted. -/
theorem Plain.rank (h : Plain D) : D.contr.rank = 1 := by rw [D.rank_contr, h.lc]; rfl

/-- Its extent is `K`. -/
theorem Plain.size (h : Plain D) : D.contr.size ⟨0, by rw [h.rank]; exact Nat.one_pos⟩ = K := by
  rw [D.size_contr 0 (by rw [h.lc]; exact Nat.one_pos)]
  simp only [h.lc, List.getElem_cons_zero]
  rfl

/-- The left operand is read at the result's row … -/
theorem Plain.lhs0 (h : Plain D) (j : (⟨2, ![A, B]⟩ : Shape).Idx) (q : D.contr.Idx) : (D.lhsIdx j q 0).val = (j 0).val := by
  unfold DotDims.lhsIdx
  rw [dif_neg (by rw [h.lb]; exact List.not_mem_nil), dif_pos (by rw [h.ln]; exact List.mem_singleton.mpr rfl)]
  simp only [Fin.val_cast]
  have key : ∀ (a b : Nat) (ha : a < (⟨2, ![A, B]⟩ : Shape).rank) (hb : b < (⟨2, ![A, B]⟩ : Shape).rank), a = b →
      (j ⟨a, ha⟩).val = (j ⟨b, hb⟩).val := fun a b ha hb e => by subst e; rfl
  exact key _ _ _ _ (by simp [h.lb, h.ln])

/-- … and the contraction position, -/
theorem Plain.lhs1 (h : Plain D) (j : (⟨2, ![A, B]⟩ : Shape).Idx) (q : D.contr.Idx) :
    (D.lhsIdx j q 1).val = (q ⟨0, by rw [h.rank]; exact Nat.one_pos⟩).val :=
  D.lhsIdx_val_of_single h.lc j q

/-- the right operand at the contraction position … -/
theorem Plain.rhs0 (h : Plain D) (j : (⟨2, ![A, B]⟩ : Shape).Idx) (q : D.contr.Idx) :
    (D.rhsIdx j q 0).val = (q ⟨0, by rw [h.rank]; exact Nat.one_pos⟩).val :=
  D.rhsIdx_val_of_single h.rc j q

/-- … and the result's column. -/
theorem Plain.rhs1 (h : Plain D) (j : (⟨2, ![A, B]⟩ : Shape).Idx) (q : D.contr.Idx) : (D.rhsIdx j q 1).val = (j 1).val := by
  unfold DotDims.rhsIdx
  rw [dif_neg (by rw [h.rb]; exact List.not_mem_nil), dif_pos (by rw [h.rn]; exact List.mem_singleton.mpr rfl)]
  simp only [Fin.val_cast]
  have key : ∀ (a b : Nat) (ha : a < (⟨2, ![A, B]⟩ : Shape).rank) (hb : b < (⟨2, ![A, B]⟩ : Shape).rank), a = b →
      (j ⟨a, ha⟩).val = (j ⟨b, hb⟩).val := fun a b ha hb e => by subst e; rfl
  exact key _ _ _ _ (by simp [h.lb, h.ln, h.rn])

/-- The contraction sum at result entry `(p, c)` is `Σ_k l (p, k) · r (k, c)`. -/
theorem Plain.sum_eq (h : Plain D) (l : (⟨2, ![A, K]⟩ : Shape).Idx → EReal) (r : (⟨2, ![K, B]⟩ : Shape).Idx → EReal)
    (p : Fin A) (c : Fin B) :
    ∑ q : D.contr.Idx, l (D.lhsIdx (ix2 p c) q) * r (D.rhsIdx (ix2 p c) q) = ∑ k : Fin K, l (ix2 p k) * r (ix2 k c) := by
  rw [← Equiv.sum_comp (contrEquiv1 D K h.rank h.size).symm]
  refine Finset.sum_congr rfl fun k _ => ?_
  have hk := contrEquiv1_symm_val D K h.rank h.size k
  have el : D.lhsIdx (ix2 p c) ((contrEquiv1 D K h.rank h.size).symm k) = ix2 p k := funext fun a => Fin.ext (by
    match a with
    | ⟨0, _⟩ => exact h.lhs0 _ _
    | ⟨1, _⟩ => exact (h.lhs1 _ _).trans hk)
  have er : D.rhsIdx (ix2 p c) ((contrEquiv1 D K h.rank h.size).symm k) = ix2 k c := funext fun a => Fin.ext (by
    match a with
    | ⟨0, _⟩ => exact (h.rhs0 _ _).trans hk
    | ⟨1, _⟩ => exact h.rhs1 _ _)
  rw [el, er]

/-- A `tpu.matmul` of such dimension numbers into the zero accumulator, at the ideal values, read at `(p, c)`. -/
theorem Plain.matmul_zero_apply (h : Plain D) (prec : Option ContractPrecision)
    (l : FVec Ideal ⟨2, ![A, K]⟩ .f32) (r : FVec Ideal ⟨2, ![K, B]⟩ .f32) (p : Fin A) (c : Fin B) :
    FloatOps.matmul D prec l r (constant ⟨2, ![A, B]⟩ .f32 0x00000000#32) (ix2 p c) = ∑ k : Fin K, l (ix2 p k) * r (ix2 k c) :=
  (Ideal.matmul_constant_zero_apply D prec l r (ix2 p c)).trans (h.sum_eq l r p c)

/-- A host `dot_general` of such dimension numbers, at the ideal values, read at `(p, c)`. -/
theorem Plain.dotGeneral_apply (h : Plain D) (prec : Option ContractPrecision) (sched : HostSchedule)
    (l : FVec Ideal ⟨2, ![A, K]⟩ .f32) (r : FVec Ideal ⟨2, ![K, B]⟩ .f32) (p : Fin A) (c : Fin B) :
    FloatOps.dotGeneral D prec sched l r (ix2 p c) = ∑ k : Fin K, l (ix2 p k) * r (ix2 k c) :=
  (Ideal.dotGeneral_apply D prec sched l r (ix2 p c)).trans (h.sum_eq l r p c)

end Cert.LibPlainDot

end
-- ==== Proof.LibPlainDotFormats.lean ====
/-
  A plain matrix product `[A, K] × [K, B] → [A, B]` into the zero accumulator read at an entry, for operands of ANY
  float formats: over the extended reals a format only names the set the entries came from, so the sum
  `Σ_{k < K} l (p, k) · r (k, c)` is the same whatever the two formats are.
-/
import proofs.«143290_j18176301597146_2_alg».proof.Proof.LibPlainDot

noncomputable section

namespace Cert.LibPlainDot

open Idealize.ShloMosaic Idealize.ShloMosaic.ValueIdx

variable {A K B : Nat} {D : DotDims ⟨2, ![A, K]⟩ ⟨2, ![K, B]⟩ ⟨2, ![A, B]⟩}

/-- A `tpu.matmul` of plain dimension numbers into the zero accumulator, at the ideal values, read at `(p, c)`,
    whatever the operands' formats. -/
theorem Plain.matmul_zero_apply_formats (h : Plain D) (prec : Option ContractPrecision) {φ₁ φ₂ : FTy}
    (l : FVec Ideal ⟨2, ![A, K]⟩ φ₁) (r : FVec Ideal ⟨2, ![K, B]⟩ φ₂) (p : Fin A) (c : Fin B) :
    FloatOps.matmul D prec l r (constant ⟨2, ![A, B]⟩ .f32 0x00000000#32) (ix2 p c) = ∑ k : Fin K, l (ix2 p k) * r (ix2 k c) :=
  (Ideal.matmul_constant_zero_apply D prec l r (ix2 p c)).trans (h.sum_eq l r p c)

end Cert.LibPlainDot

end
-- ==== Proof.KernelRows.lean ====
/-
  The kernel body's arithmetic, read at one entry.

  The body works on a block of 4096 rows.  Its two pure terms are: the first dense layer's activations (the row
  normalised in the moments arrangement, multiplied into the 384 x 128 weights, plus the bias row, maximum with zero),
  and from those the output block (two more dense layers).  Entry (p, c) of the output block depends on row p of the
  input block only, and is the per-row network of that row: the lane sums are the row's sums, a [4096, 1] column spread
  across a row is the row's one value, a [1, b] row spread down the rows is that row's entry of the column, and each
  matrix product into zero is the sum over the contracted axis.  Changing the float format is the identity on the
  extended reals, so the half-precision copies are the values themselves.
-/
import proofs.«143290_j18176301597146_2_alg».proof.Proof.Gen.KernelIdeal.Skeleton
import Idealize.ShloMosaic.Lib.Pipeline.Value
import Idealize.ShloMosaic.Lib.ValueIdx
import Idealize.ShloMosaic.PureOps.Ideal.Laws
import proofs.«143290_j18176301597146_2_alg».proof.Proof.Head
import proofs.«143290_j18176301597146_2_alg».proof.Proof.LibKeepdims
import proofs.«143290_j18176301597146_2_alg».proof.Proof.LibRowLayout
import proofs.«143290_j18176301597146_2_alg».proof.Proof.LibPlainDotFormats

noncomputable section

open scoped BigOperators

namespace Cert.KernelRows

open Cert.KernelIdeal Cert.KernelIdeal.Gen Idealize.ShloMosaic Idealize.ShloMosaic.ValueIdx Cert.Head

/-- The three contractions are plain matrix products. -/
theorem plain0 : Cert.LibPlainDot.Plain dot_S4096x384_S384x128_S4096x128_1_0_0_1_n_n := ⟨rfl, rfl, rfl, rfl, rfl, rfl⟩
theorem plain1 : Cert.LibPlainDot.Plain dot_S4096x128_S128x128_S4096x128_1_0_0_1_n_n := ⟨rfl, rfl, rfl, rfl, rfl, rfl⟩
theorem plain2 : Cert.LibPlainDot.Plain dot_S4096x128_S128x50_S4096x50_1_0_0_1_n_n := ⟨rfl, rfl, rfl, rfl, rfl, rfl⟩

/-- A reciprocal square root of an array is taken entry by entry. -/
theorem rsqrt_apply {s : Shape} {φ : FTy} (a : FVec Ideal s φ) (i : s.Idx) : rsqrt a i = Ideal.rsqrt (a i) := rfl

/-- The lane sum of a block kept as a one-column array reads, at row p, the sum of row p. -/
theorem rowSum_col (y : FVec Ideal S4096x384 .f32) (p : Fin 4096) (u : Fin 1) :
    shapeCast S4096x1 (multiReduction .add [1] S4096 y 0x00000000#32 reduces_S4096x384_S4096 (.inl rfl) rfl)
        shapeCasts_S4096_S4096x1 (ix2 p u)
      = ∑ k : Fin 384, y (ix2 p k) :=
  (Cert.LibKeepdims.shapeCast_a_a1_apply _ _ p u).trans (Cert.LibKeepdims.multiReduction_add_rows_apply y _ _ _ p)

/-- The first payload at entry (p, j): the first layer's activation j of row p. -/
theorem pay2_apply (v0 : FVec Ideal S4096x384 .f32) (v15 v20 : FVec Ideal S1x384 .f32) (v29 : FVec Ideal S384x128 .bf16)
    (v32 : FVec Ideal S1x128 .f32) (p : Fin 4096) (j : Fin 128) :
    k0_pay2 (F := Ideal) v0 v15 v20 v29 v32 (ix2 p j)
      = relu (dense (normMoments (fun k => v0 (ix2 p k)) (fun k => v15 (ix2 (0 : Fin 1) k)) (fun k => v20 (ix2 (0 : Fin 1) k)))
          v29 (fun i => v32 (ix2 (0 : Fin 1) i)) j) := by
  unfold k0_pay2
  simp only [truncf_apply, maximumf_apply, addf_apply, subf_apply, mulf_apply, divf_apply, broadcast_apply, rsqrt_apply,
    plain0.matmul_zero_apply_formats, Cert.LibRowLayout.broadcastTo_1b_ab_apply, Cert.LibKeepdims.broadcastTo_a1_ab_apply,
    shapeCast_self]
  rw [rowSum_col v0, rowSum_col (mulf v0 v0)]
  rfl

/-- The second payload at entry (p, c): the last two layers of row p's activations. -/
theorem pay1_apply (v38 : FVec Ideal S4096x128 .bf16) (v39 : FVec Ideal S128x128 .bf16) (v42 : FVec Ideal S1x128 .f32)
    (v49 : FVec Ideal S128x50 .bf16) (v52 : FVec Ideal S1x50 .f32) (p : Fin 4096) (c : Fin 50) :
    k0_pay1 (F := Ideal) v38 v39 v42 v49 v52 (ix2 p c)
      = dense (fun j => relu (dense (fun i => v38 (ix2 p i)) v39 (fun i => v42 (ix2 (0 : Fin 1) i)) j))
          v49 (fun i => v52 (ix2 (0 : Fin 1) i)) c := by
  unfold k0_pay1
  simp only [truncf_apply, maximumf_apply, addf_apply, broadcast_apply,
    plain1.matmul_zero_apply_formats, plain2.matmul_zero_apply_formats, Cert.LibRowLayout.broadcastTo_1b_ab_apply,
    shapeCast_self]
  rfl

/-- The body's stored value at entry (p, c): the network of row p of the input block, normalised in the moments
    arrangement. -/
theorem body_apply (x0 : FVec Ideal S4096x384 .f32) (x1 x2 : FVec Ideal S1x384 .f32) (x3 : FVec Ideal S384x128 .bf16)
    (x4 : FVec Ideal S1x128 .f32) (x5 : FVec Ideal S128x128 .bf16) (x6 : FVec Ideal S1x128 .f32)
    (x7 : FVec Ideal S128x50 .bf16) (x8 : FVec Ideal S1x50 .f32) (p : Fin 4096) (c : Fin 50) :
    k0_pay1 (F := Ideal) (k0_pay2 x0 x1 x2 x3 x4) x5 x6 x7 x8 (ix2 p c)
      = layers (normMoments (fun k => x0 (ix2 p k)) (fun k => x1 (ix2 (0 : Fin 1) k)) (fun k => x2 (ix2 (0 : Fin 1) k)))
          x3 (fun i => x4 (ix2 (0 : Fin 1) i)) x5 (fun i => x6 (ix2 (0 : Fin 1) i)) x7 (fun i => x8 (ix2 (0 : Fin 1) i)) c := by
  rw [pay1_apply]
  unfold layers
  simp only [pay2_apply]

end Cert.KernelRows

end
-- ==== Proof.KernelArray.lean ====
/-
  From the blocks the grid points write to the whole result array.

  Grid point t works on rows 4096 t ... 4096 t + 4095 of the input and writes rows of the same numbers of the result;
  the scale, bias and weight operands are each one block that is the whole operand.  An output entry depends on its own
  row of the input only, so what point t writes back is block t of ONE function of the operand arrays: entry (r, c) is
  the per-row network of row r.  The 64 blocks tile the result's rows, so the array ends holding that function.
  The operands the body reads are the program's arguments up to layout and format: a vector viewed as a one-row array
  reads the vector's entries, and a change of float format is the identity on the extended reals.
-/
import proofs.«143290_j18176301597146_2_alg».proof.Proof.Gen.KernelIdeal.Value
import proofs.«143290_j18176301597146_2_alg».proof.Proof.KernelRows
import proofs.«143290_j18176301597146_2_alg».proof.Proof.LibRowLayout
import Idealize.ShloMosaic.Lib.Pipeline.Value
import Idealize.ShloMosaic.Lib.StableHlo.Run

set_option maxRecDepth 16384

noncomputable section

open scoped BigOperators

namespace Cert.KernelArray

open Cert.KernelIdeal Cert.KernelIdeal.Gen Cert.KernelIdeal.Value Idealize.ShloMosaic Idealize.ShloMosaic.TcCoe Idealize.SL.Sem
open Idealize.ShloMosaic.ValueIdx Cert.Head
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The result as one function of the arrays the body's windows read: entry (r, c) is the network of row r of the
    input, normalised in the moments arrangement, with the one-row operands' entries as scale, bias and layer biases. -/
def net (a0 : FVec Ideal S262144x384 .f32) (a1 a2 : FVec Ideal S1x384 .f32) (a3 : FVec Ideal S384x128 .bf16)
    (a4 : FVec Ideal S1x128 .f32) (a5 : FVec Ideal S128x128 .bf16) (a6 : FVec Ideal S1x128 .f32)
    (a7 : FVec Ideal S128x50 .bf16) (a8 : FVec Ideal S1x50 .f32) : FVec Ideal S262144x50 .f32 :=
  fun i => layers (normMoments (fun k => a0 (ix2 (i 0) k)) (fun k => a1 (ix2 (0 : Fin 1) k)) (fun k => a2 (ix2 (0 : Fin 1) k)))
    a3 (fun n => a4 (ix2 (0 : Fin 1) n)) a5 (fun n => a6 (ix2 (0 : Fin 1) n)) a7 (fun n => a8 (ix2 (0 : Fin 1) n)) (i 1)

/-- One entry of the body's stored block is the entry of net it lands on, when the input block is rows
    4096 T ... of the input array and the entry sits T blocks down. -/
theorem block_entry (A0 : FVec Ideal S262144x384 .f32) (x0 : FVec Ideal S4096x384 .f32) (x1 x2 : FVec Ideal S1x384 .f32)
    (x3 : FVec Ideal S384x128 .bf16) (x4 : FVec Ideal S1x128 .f32) (x5 : FVec Ideal S128x128 .bf16)
    (x6 : FVec Ideal S1x128 .f32) (x7 : FVec Ideal S128x50 .bf16) (x8 : FVec Ideal S1x50 .f32) (T : ℕ)
    (hx0 : ∀ (p : Fin 4096) (k : Fin 384) (r : Fin 262144), r.val = T * 4096 + p.val → x0 (ix2 p k) = A0 (ix2 r k))
    (j : S4096x50.Idx) (i : S262144x50.Idx) (hi0 : (i 0).val = T * 4096 + (j 0).val) (hi1 : (i 1).val = (j 1).val) :
    k0_pay1 (F := Ideal) (k0_pay2 x0 x1 x2 x3 x4) x5 x6 x7 x8 j = net A0 x1 x2 x3 x4 x5 x6 x7 x8 i := by
  obtain ⟨p, q, rfl⟩ : ∃ (p : Fin 4096) (q : Fin 50), j = ix2 p q := ⟨j 0, j 1, eq_ix2 j⟩
  obtain ⟨r, c, rfl⟩ : ∃ (r : Fin 262144) (c : Fin 50), i = ix2 r c := ⟨i 0, i 1, eq_ix2 i⟩
  have hc : c = q := Fin.ext hi1
  subst hc
  have hr : r.val = T * 4096 + p.val := hi0
  rw [Cert.KernelRows.body_apply]
  show layers (normMoments (fun k => x0 (ix2 p k)) _ _) _ _ _ _ _ _ c = layers (normMoments (fun k => A0 (ix2 r k)) _ _) _ _ _ _ _ _ c
  rw [show (fun k => x0 (ix2 p k)) = fun k => A0 (ix2 r k) from funext fun k => hx0 p k r hr]

/-! ## The windows' blocks -/

/-- The printed index maps over the grid: the input and the result move one block of rows per point; every other
    operand stays at its one block. -/
theorem idx_facts : ∀ t : Fin cfg0.N,
    win0_0.index t (0 : Fin 2) = t.val ∧ win0_0.index t (1 : Fin 2) = 0
    ∧ win0_9.index t (0 : Fin 2) = t.val ∧ win0_9.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

/-- The input's block at point t is rows 4096 t ... of the input array. -/
theorem iblk0_apply (c : Dev nD) (t : Fin cfg0.N) (p : Fin 4096) (k : Fin 384) (r : Fin 262144)
    (hr : r.val = t.val * 4096 + p.val) :
    (iblk m c 0 t : FVec Ideal S4096x384 .f32) (ix2 p k) = (V m c main_arg0 : FVec Ideal S262144x384 .f32) (ix2 r k) := by
  obtain ⟨e00, e01, -⟩ := idx_facts t
  show V m c main_arg0 (((cfg0.win 0).blk t).view.emb (ix2 p k)) = V m c main_arg0 (ix2 r k)
  refine congrArg (V m c main_arg0) (funext fun a => Fin.ext ?_)
  match a with
  | ⟨0, _⟩ => show win0_0.index t (0 : Fin 2) * 4096 + 1 * p.val = r.val; omega
  | ⟨1, _⟩ => show win0_0.index t (1 : Fin 2) * 384 + 1 * k.val = k.val; omega

/-- Each of the other operands' one block is the whole operand. -/
theorem iblk1 (c : Dev nD) (t : Fin cfg0.N) : (iblk m c 1 t : FVec Ideal S1x384 .f32) = V m c main_v0 := by
  obtain ⟨-, -, -, -, e0, e1, -⟩ := idx_facts t
  funext y
  show V m c main_v0 (((cfg0.win 1).blk t).view.emb y) = V m c main_v0 y
  refine congrArg (V m c main_v0) (funext fun a => Fin.ext ?_)
  match a with
  | ⟨0, _⟩ => show win0_1.index t (0 : Fin 2) * 1 + 1 * (y 0).val = (y 0).val; omega
  | ⟨1, _⟩ => show win0_1.index t (1 : Fin 2) * 384 + 1 * (y 1).val = (y 1).val; omega
theorem iblk2 (c : Dev nD) (t : Fin cfg0.N) : (iblk m c 2 t : FVec Ideal S1x384 .f32) = V m c main_v1 := by
  obtain ⟨-, -, -, -, -, -, e0, e1, -⟩ := idx_facts t
  funext y
  show V m c main_v1 (((cfg0.win 2).blk t).view.emb y) = V m c main_v1 y
  refine congrArg (V m c main_v1) (funext fun a => Fin.ext ?_)
  match a with
  | ⟨0, _⟩ => show win0_2.index t (0 : Fin 2) * 1 + 1 * (y 0).val = (y 0).val; omega
  | ⟨1, _⟩ => show win0_2.index t (1 : Fin 2) * 384 + 1 * (y 1).val = (y 1).val; omega
theorem iblk3 (c : Dev nD) (t : Fin cfg0.N) : (iblk m c 3 t : FVec Ideal S384x128 .bf16) = V m c main_v5 := by
  obtain ⟨-, -, -, -, -, -, -, -, e0, e1, -⟩ := idx_facts t
  funext y
  show V m c main_v5 (((cfg0.win 3).blk t).view.emb y) = V m c main_v5 y
  refine congrArg (V m c main_v5) (funext fun a => Fin.ext ?_)
  match a with
  | ⟨0, _⟩ => show win0_3.index t (0 : Fin 2) * 384 + 1 * (y 0).val = (y 0).val; omega
  | ⟨1, _⟩ => show win0_3.index t (1 : Fin 2) * 128 + 1 * (y 1).val = (y 1).val; omega
theorem iblk4 (c : Dev nD) (t : Fin cfg0.N) : (iblk m c 4 t : FVec Ideal S1x128 .f32) = V m c main_v2 := by
  obtain ⟨-, -, -, -, -, -, -, -, -, -, e0, e1, -⟩ := idx_facts t
  funext y
  show V m c main_v2 (((cfg0.win 4).blk t).view.emb y) = V m c main_v2 y
  refine congrArg (V m c main_v2) (funext fun a => Fin.ext ?_)
  match a with
  | ⟨0, _⟩ => show win0_4.index t (0 : Fin 2) * 1 + 1 * (y 0).val = (y 0).val; omega
  | ⟨1, _⟩ => show win0_4.index t (1 : Fin 2) * 128 + 1 * (y 1).val = (y 1).val; omega
theorem iblk5 (c : Dev nD) (t : Fin cfg0.N) : (iblk m c 5 t : FVec Ideal S128x128 .bf16) = V m c main_v6 := by
  obtain ⟨-, -, -, -, -, -, -, -, -, -, -, -, e0, e1, -⟩ := idx_facts t
  funext y
  show V m c main_v6 (((cfg0.win 5).blk t).view.emb y) = V m c main_v6 y
  refine congrArg (V m c main_v6) (funext fun a => Fin.ext ?_)
  match a with
  | ⟨0, _⟩ => show win0_5.index t (0 : Fin 2) * 128 + 1 * (y 0).val = (y 0).val; omega
  | ⟨1, _⟩ => show win0_5.index t (1 : Fin 2) * 128 + 1 * (y 1).val = (y 1).val; omega
theorem iblk6 (c : Dev nD) (t : Fin cfg0.N) : (iblk m c 6 t : FVec Ideal S1x128 .f32) = V m c main_v3 := by
  obtain ⟨-, -, -, -, -, -, -, -, -, -, -, -, -, -, e0, e1, -⟩ := idx_facts t
  funext y
  show V m c main_v3 (((cfg0.win 6).blk t).view.emb y) = V m c main_v3 y
  refine congrArg (V m c main_v3) (funext fun a => Fin.ext ?_)
  match a with
  | ⟨0, _⟩ => show win0_6.index t (0 : Fin 2) * 1 + 1 * (y 0).val = (y 0).val; omega
  | ⟨1, _⟩ => show win0_6.index t (1 : Fin 2) * 128 + 1 * (y 1).val = (y 1).val; omega
theorem iblk7 (c : Dev nD) (t : Fin cfg0.N) : (iblk m c 7 t : FVec Ideal S128x50 .bf16) = V m c main_v7 := by
  obtain ⟨-, -, -, -, -, -, -, -, -, -, -, -, -, -, -, -, e0, e1, -⟩ := idx_facts t
  funext y
  show V m c main_v7 (((cfg0.win 7).blk t).view.emb y) = V m c main_v7 y
  refine congrArg (V m c main_v7) (funext fun a => Fin.ext ?_)
  match a with
  | ⟨0, _⟩ => show win0_7.index t (0 : Fin 2) * 128 + 1 * (y 0).val = (y 0).val; omega
  | ⟨1, _⟩ => show win0_7.index t (1 : Fin 2) * 50 + 1 * (y 1).val = (y 1).val; omega
theorem iblk8 (c : Dev nD) (t : Fin cfg0.N) : (iblk m c 8 t : FVec Ideal S1x50 .f32) = V m c main_v4 := by
  obtain ⟨-, -, -, -, -, -, -, -, -, -, -, -, -, -, -, -, -, -, e0, e1⟩ := idx_facts t
  funext y
  show V m c main_v4 (((cfg0.win 8).blk t).view.emb y) = V m c main_v4 y
  refine congrArg (V m c main_v4) (funext fun a => Fin.ext ?_)
  match a with
  | ⟨0, _⟩ => show win0_8.index t (0 : Fin 2) * 1 + 1 * (y 0).val = (y 0).val; omega
  | ⟨1, _⟩ => show win0_8.index t (1 : Fin 2) * 50 + 1 * (y 1).val = (y 1).val; omega

/-! ## What a point writes back, and the array after the run -/

/-- The result array as the region's operands determine it. -/
def G (c : Dev nD) : FVec Ideal S262144x50 .f32 :=
  net (V m c main_arg0) (V m c main_v0) (V m c main_v1) (V m c main_v5) (V m c main_v2) (V m c main_v6) (V m c main_v3)
    (V m c main_v7) (V m c main_v4)

/-- What point t writes back is block t of G. -/
theorem flushed_eq (c : Dev nD) (t : Fin cfg0.N) :
    (dats m 0 c).flushed 9 t = ((cfg0.win 9).blk t).view.read (Elt Ideal) (G m c) := by
  rw [flushed9]
  unfold out0_9
  rw [View.canon_unit_zero hz]
  simp only [View.ld_unit_zero (S := S4096x384) hz, View.ld_unit_zero (S := S1x384) hz, View.ld_unit_zero (S := S384x128) hz,
    View.ld_unit_zero (S := S1x128) hz, View.ld_unit_zero (S := S128x128) hz, View.ld_unit_zero (S := S128x50) hz,
    View.ld_unit_zero (S := S1x50) hz]
  rw [iblk1 m c t, iblk2 m c t, iblk3 m c t, iblk4 m c t, iblk5 m c t, iblk6 m c t, iblk7 m c t, iblk8 m c t]
  obtain ⟨-, -, e90, e91, -⟩ := idx_facts t
  funext j
  show k0_pay1 (F := Ideal) (k0_pay2 (iblk m c 0 t) (V m c main_v0) (V m c main_v1) (V m c main_v5) (V m c main_v2))
      (V m c main_v6) (V m c main_v3) (V m c main_v7) (V m c main_v4) j = G m c (((cfg0.win 9).blk t).view.emb j)
  refine block_entry (V m c main_arg0) (iblk m c 0 t) (V m c main_v0) (V m c main_v1) (V m c main_v5) (V m c main_v2)
    (V m c main_v6) (V m c main_v3) (V m c main_v7) (V m c main_v4) t.val (fun p k r hr => iblk0_apply m c t p k r hr)
    j (((cfg0.win 9).blk t).view.emb j) ?_ ?_
  · show win0_9.index t (0 : Fin 2) * 4096 + 1 * (j 0).val = t.val * 4096 + (j 0).val; omega
  · show win0_9.index t (1 : Fin 2) * 50 + 1 * (j 1).val = (j 1).val; omega

/-- An index of the result is in point t's block iff each coordinate is in the block's range on its axis. -/
theorem mem_blk (t : Fin cfg0.N) (i : S262144x50.Idx) :
    i ∈ ((cfg0.win 9).blk t).view.set ↔ ∀ a : Fin 2, win0_9.index t a * S4096x50.size a ≤ (i a).val
      ∧ (i a).val < win0_9.index t a * S4096x50.size a + S4096x50.size a := by
  show i ∈ ((View.whole main_v8).slice (win0_9.rect t)).set ↔ _
  rw [View.set_slice_whole, Rect.mem_set_unit]
  exact Iff.rfl

/-- The 64 blocks of 4096 rows cover the result: row r is in block r / 4096. -/
theorem cover (i : S262144x50.Idx) : ∃ t : Fin cfg0.N, (cfg0.win 9).flush t = true ∧ i ∈ ((cfg0.win 9).blk t).view.set := by
  have hi0 : (i 0).val < 262144 := (i 0).isLt
  have hi1 : (i 1).val < 50 := (i 1).isLt
  have hN : cfg0.N = 64 := N_0
  obtain ⟨t, ht⟩ : ∃ t : Fin cfg0.N, t.val = (i 0).val / 4096 := ⟨⟨(i 0).val / 4096, by rw [hN]; omega⟩, rfl⟩
  obtain ⟨-, -, e90, e91, -⟩ := idx_facts t
  refine ⟨t, flush0_9 t, ?_⟩
  rw [mem_blk]
  intro a
  match a with
  | ⟨0, _⟩ =>
    show win0_9.index t (0 : Fin 2) * 4096 ≤ (i 0).val ∧ (i 0).val < win0_9.index t (0 : Fin 2) * 4096 + 4096
    omega
  | ⟨1, _⟩ =>
    show win0_9.index t (1 : Fin 2) * 50 ≤ (i 1).val ∧ (i 1).val < win0_9.index t (1 : Fin 2) * 50 + 50
    omega

/-- So the result array ends holding G. -/
theorem final9 (c : Dev nD) : (dats m 0 c).arrAt 9 cfg0.N = G m c :=
  (dats m 0 c).arrAt_eq_of_cover 9 (G m c) (fun t _ => flushed_eq m c t) (cover)

end Cert.KernelArray

end
-- ==== Proof.KernelResult.lean ====
/-
  The kernel's result array as a function of the program's arguments.

  Before the region the host views each of the five vectors (scale, bias, three layer biases) as a one-row array and
  converts the three weight matrices to half precision.  A vector viewed as one row reads the vector's entry of that
  column; a format change is the identity on the extended reals.  So the result array the region leaves is the
  moments-arrangement network of the arguments themselves.
-/
import proofs.«143290_j18176301597146_2_alg».proof.Proof.KernelArray

set_option maxRecDepth 16384

noncomputable section

namespace Cert.KernelResult

open Cert.KernelIdeal Cert.KernelIdeal.Gen Cert.KernelIdeal.Value Idealize.ShloMosaic Idealize.ShloMosaic.TcCoe Idealize.SL.Sem
open Idealize.ShloMosaic.ValueIdx Cert.Head

variable (m : (ℓ : Loc nD τ sig) → Buf (Elt Ideal) ℓ) (ρ : Dev nD → PrngReg)

/-! ## The operands as the region finds them -/

theorem V_v0 (c : Dev nD) : (V m c main_v0 : FVec Ideal S1x384 .f32)
    = shapeCast S1x384 (m ((c : Thread nD τ).loc main_arg1) : FVec Ideal S384 .f32) shapeCasts_S384_S1x384 := by
  dsimp only [Gen.V, Gen.hostOps0]; after_results; rfl
theorem V_v1 (c : Dev nD) : (V m c main_v1 : FVec Ideal S1x384 .f32)
    = shapeCast S1x384 (m ((c : Thread nD τ).loc main_arg2) : FVec Ideal S384 .f32) shapeCasts_S384_S1x384 := by
  dsimp only [Gen.V, Gen.hostOps0]; after_results; rfl
theorem V_v2 (c : Dev nD) : (V m c main_v2 : FVec Ideal S1x128 .f32)
    = shapeCast S1x128 (m ((c : Thread nD τ).loc main_arg4) : FVec Ideal S128 .f32) shapeCasts_S128_S1x128 := by
  dsimp only [Gen.V, Gen.hostOps0]; after_results; rfl
theorem V_v3 (c : Dev nD) : (V m c main_v3 : FVec Ideal S1x128 .f32)
    = shapeCast S1x128 (m ((c : Thread nD τ).loc main_arg6) : FVec Ideal S128 .f32) shapeCasts_S128_S1x128 := by
  dsimp only [Gen.V, Gen.hostOps0]; after_results; rfl
theorem V_v4 (c : Dev nD) : (V m c main_v4 : FVec Ideal S1x50 .f32)
    = shapeCast S1x50 (m ((c : Thread nD τ).loc main_arg8) : FVec Ideal S50 .f32) shapeCasts_S50_S1x50 := by
  dsimp only [Gen.V, Gen.hostOps0]; after_results; rfl
theorem V_v5 (c : Dev nD) : (V m c main_v5 : S384x128.Idx → EReal) = m ((c : Thread nD τ).loc main_arg3) := by
  dsimp only [Gen.V, Gen.hostOps0]; after_results; rfl
theorem V_v6 (c : Dev nD) : (V m c main_v6 : S128x128.Idx → EReal) = m ((c : Thread nD τ).loc main_arg5) := by
  dsimp only [Gen.V, Gen.hostOps0]; after_results; rfl
theorem V_v7 (c : Dev nD) : (V m c main_v7 : S128x50.Idx → EReal) = m ((c : Thread nD τ).loc main_arg7) := by
  dsimp only [Gen.V, Gen.hostOps0]; after_results; rfl

/-- A vector viewed as a one-row array, as a function of the array index: the vector's entry of the column. -/
theorem oneRow {b : ℕ} (x : FVec Ideal ⟨1, ![b]⟩ .f32) (h : (⟨1, ![b]⟩ : Shape).ShapeCasts ⟨2, ![1, b]⟩) :
    shapeCast ⟨2, ![1, b]⟩ x h = fun j => x (ix1 (j 1)) := by
  funext j
  obtain ⟨u, k, rfl⟩ : ∃ (u : Fin 1) (k : Fin b), j = ix2 u k := ⟨j 0, j 1, eq_ix2 j⟩
  exact Cert.LibRowLayout.shapeCast_b_1b_apply x h u k

theorem V_v0' (c : Dev nD) : (V m c main_v0 : FVec Ideal S1x384 .f32)
    = fun j => (m ((c : Thread nD τ).loc main_arg1) : FVec Ideal S384 .f32) (ix1 (j 1)) := (V_v0 m c).trans (oneRow _ _)
theorem V_v1' (c : Dev nD) : (V m c main_v1 : FVec Ideal S1x384 .f32)
    = fun j => (m ((c : Thread nD τ).loc main_arg2) : FVec Ideal S384 .f32) (ix1 (j 1)) := (V_v1 m c).trans (oneRow _ _)
theorem V_v2' (c : Dev nD) : (V m c main_v2 : FVec Ideal S1x128 .f32)
    = fun j => (m ((c : Thread nD τ).loc main_arg4) : FVec Ideal S128 .f32) (ix1 (j 1)) := (V_v2 m c).trans (oneRow _ _)
theorem V_v3' (c : Dev nD) : (V m c main_v3 : FVec Ideal S1x128 .f32)
    = fun j => (m ((c : Thread nD τ).loc main_arg6) : FVec Ideal S128 .f32) (ix1 (j 1)) := (V_v3 m c).trans (oneRow _ _)
theorem V_v4' (c : Dev nD) : (V m c main_v4 : FVec Ideal S1x50 .f32)
    = fun j => (m ((c : Thread nD τ).loc main_arg8) : FVec Ideal S50 .f32) (ix1 (j 1)) := (V_v4 m c).trans (oneRow _ _)

/-! ## The result -/

/-- The result array the region leaves is the moments-arrangement network of the nine arguments. -/
theorem G_eq (c : Dev nD) :
    Cert.KernelArray.G m c = wholeMoments (N := 262144)
      (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8)) := by
  funext i
  unfold Cert.KernelArray.G Cert.KernelArray.net wholeMoments
  rw [V_main_arg0 m c, V_v0' m c, V_v1' m c, V_v2' m c, V_v3' m c, V_v4' m c, V_v5 m c, V_v6 m c, V_v7 m c]
  rfl

end Cert.KernelResult

end
-- ==== Proof.LibJoinedRows.lean ====
/-
  Layout reads a gather / scatter pipeline over an edge list meets, each at an entry given by its coordinates, generic in
  the extents and (but for the last section) the entry type:

  * a scalar spread over any shape reads the scalar everywhere;
  * a vector `[a]` made a column `[a, 1]` reads, at `(i, 0)`, the vector's entry `i`;
  * a column `[a, 1]` spread across `[a, b]` reads, at `(i, j)`, the column's entry `i`;
  * the transpose of an `[a, b]` matrix reads, at `(j, i)`, the matrix at `(i, j)`;
  * two arrays joined along their first axis (`[E₁, C]` and `[E₂, C]` into `[T, C]`; `[E₁]` and `[E₂]` into `[T]`) read
    the first piece at a row below `E₁` and the second piece, `E₁` rows up, at or above it;
  * a sum over the `T = E₁ + E₂` rows of a joined array is the sum over the first piece's rows plus the sum over the
    second piece's.
-/
import Idealize.ShloMosaic.Lib.Pipeline.Value
import Idealize.ShloMosaic.Lib.ValueIdx

noncomputable section

open scoped BigOperators

namespace Cert.LibJoinedRows

open Idealize.ShloMosaic Idealize.ShloMosaic.ValueIdx

variable {α : Type}

/-- A scalar spread over a shape reads the scalar at every index. -/
theorem bcast_scalar_apply {t : Shape} (h : (⟨0, ![]⟩ : Shape).BroadcastsInDim t (![] : Fin 0 → Fin t.rank))
    (x : (⟨0, ![]⟩ : Shape).Idx → α) (j : t.Idx) : broadcastInDim t ![] h x j = x ix0 :=
  broadcastInDim_apply _ h x j ix0 (fun a => a.elim0)

/-- A vector made a column reads the vector's entry. -/
theorem bcast_vec_col_apply {a : ℕ} (h : (⟨1, ![a]⟩ : Shape).BroadcastsInDim ⟨2, ![a, 1]⟩ (![0] : Fin 1 → Fin 2))
    (x : (⟨1, ![a]⟩ : Shape).Idx → α) (i : Fin a) (u : Fin 1) :
    broadcastInDim ⟨2, ![a, 1]⟩ ![0] h x (ix2 i u) = x (ix1 i) := by
  refine broadcastInDim_apply _ h x _ (ix1 i) fun ax => ?_
  match ax with
  | ⟨0, _⟩ =>
    show i.val = if a = 1 then 0 else i.val
    split
    · have := i.isLt; omega
    · rfl

/-- A column spread across the columns of each row reads the column's entry of that row. -/
theorem bcast_col_rows_apply {a b : ℕ} (h : (⟨2, ![a, 1]⟩ : Shape).BroadcastsInDim ⟨2, ![a, b]⟩ (![0, 1] : Fin 2 → Fin 2))
    (x : (⟨2, ![a, 1]⟩ : Shape).Idx → α) (i : Fin a) (j : Fin b) :
    broadcastInDim ⟨2, ![a, b]⟩ ![0, 1] h x (ix2 i j) = x (ix2 i (0 : Fin 1)) := by
  refine broadcastInDim_apply _ h x _ (ix2 i (0 : Fin 1)) fun ax => ?_
  match ax with
  | ⟨0, _⟩ =>
    show i.val = if a = 1 then 0 else i.val
    split
    · have := i.isLt; omega
    · rfl
  | ⟨1, _⟩ => rfl

/-- The transpose of a matrix reads the matrix at the swapped coordinates. -/
theorem transpose2_apply {a b : ℕ} (h : (⟨2, ![a, b]⟩ : Shape).Transposes [1, 0] ⟨2, ![b, a]⟩)
    (x : (⟨2, ![a, b]⟩ : Shape).Idx → α) (j : Fin b) (i : Fin a) :
    transpose ⟨2, ![b, a]⟩ [1, 0] x h (ix2 j i) = x (ix2 i j) := by
  refine transpose_apply [1, 0] x h (ix2 j i) (ix2 i j) fun bx => ?_
  match bx with
  | ⟨0, _⟩ => rfl
  | ⟨1, _⟩ => rfl

/-! ## Two arrays joined along the first axis -/

section Join
variable {E1 E2 T C : ℕ}

/-- A row below the first piece's extent reads the first piece. -/
theorem join_rows_left (h : Shape.Concatenates [(⟨2, ![E1, C]⟩ : Shape), ⟨2, ![E2, C]⟩] ⟨2, ![T, C]⟩ 0)
    (x₁ : (⟨2, ![E1, C]⟩ : Shape).Idx → α) (x₂ : (⟨2, ![E2, C]⟩ : Shape).Idx → α) (e : Fin E1) (he : e.val < T) (c : Fin C) :
    concatenate ⟨2, ![T, C]⟩ 0 [⟨_, x₁⟩, ⟨_, x₂⟩] h (ix2 ⟨e.val, he⟩ c) = x₁ (ix2 e c) :=
  concatenate_pair_apply_left 0 x₁ x₂ h _ rfl (ix2 e c) (fun b => by
    match b with
    | ⟨0, _⟩ => rfl
    | ⟨1, _⟩ => rfl)

/-- A row at or above it reads the second piece, that many rows up. -/
theorem join_rows_right (h : Shape.Concatenates [(⟨2, ![E1, C]⟩ : Shape), ⟨2, ![E2, C]⟩] ⟨2, ![T, C]⟩ 0)
    (x₁ : (⟨2, ![E1, C]⟩ : Shape).Idx → α) (x₂ : (⟨2, ![E2, C]⟩ : Shape).Idx → α) (e : Fin E2) (he : E1 + e.val < T) (c : Fin C) :
    concatenate ⟨2, ![T, C]⟩ 0 [⟨_, x₁⟩, ⟨_, x₂⟩] h (ix2 ⟨E1 + e.val, he⟩ c) = x₂ (ix2 e c) :=
  concatenate_pair_apply_right 0 x₁ x₂ h _ rfl rfl (ix2 e c) (fun b hb => by
    match b with
    | ⟨0, _⟩ => exact absurd rfl hb
    | ⟨1, _⟩ => rfl) (by show e.val + E1 = E1 + e.val; omega)

/-- The same for one-axis arrays: an entry below the first piece's extent … -/
theorem join_vec_left (h : Shape.Concatenates [(⟨1, ![E1]⟩ : Shape), ⟨1, ![E2]⟩] ⟨1, ![T]⟩ 0)
    (x₁ : (⟨1, ![E1]⟩ : Shape).Idx → α) (x₂ : (⟨1, ![E2]⟩ : Shape).Idx → α) (e : Fin E1) (he : e.val < T) :
    concatenate ⟨1, ![T]⟩ 0 [⟨_, x₁⟩, ⟨_, x₂⟩] h (ix1 ⟨e.val, he⟩) = x₁ (ix1 e) :=
  concatenate_pair_apply_left 0 x₁ x₂ h _ rfl (ix1 e) (fun b => by
    match b with
    | ⟨0, _⟩ => rfl)

/-- … and one at or above it. -/
theorem join_vec_right (h : Shape.Concatenates [(⟨1, ![E1]⟩ : Shape), ⟨1, ![E2]⟩] ⟨1, ![T]⟩ 0)
    (x₁ : (⟨1, ![E1]⟩ : Shape).Idx → α) (x₂ : (⟨1, ![E2]⟩ : Shape).Idx → α) (e : Fin E2) (he : E1 + e.val < T) :
    concatenate ⟨1, ![T]⟩ 0 [⟨_, x₁⟩, ⟨_, x₂⟩] h (ix1 ⟨E1 + e.val, he⟩) = x₂ (ix1 e) :=
  concatenate_pair_apply_right 0 x₁ x₂ h _ rfl rfl (ix1 e) (fun b hb => by
    match b with
    | ⟨0, _⟩ => exact absurd rfl hb) (by show e.val + E1 = E1 + e.val; omega)

/-- A sum over `T = E₁ + E₂` rows is the sum over the first `E₁` plus the sum over the last `E₂`. -/
theorem sum_rows_split {M : Type} [AddCommMonoid M] (hT : T = E1 + E2) (f : Fin T → M) :
    ∑ e', f e' = ∑ e : Fin E1, f ⟨e.val, by omega⟩ + ∑ e : Fin E2, f ⟨E1 + e.val, by omega⟩ := by
  subst hT
  rw [Fin.sum_univ_add]
  congr 1 <;> exact Finset.sum_congr rfl fun e _ => congrArg f (Fin.ext rfl)

end Join

end Cert.LibJoinedRows

end
-- ==== Proof.LibRowBcast.lean ====
/-
  A vector spread down the rows of a table by two host broadcasts, read at an entry: `[b] → [1, b]` (the vector laid
  along axis 1 of a one-row array) and `[1, b] → [a, b]` (the row repeated); entry `(i, j)` of the result is the
  vector's entry `j`.  Generic in the extents and the entry type.
-/
import Idealize.ShloMosaic.Lib.Pipeline.Value
import Idealize.ShloMosaic.Lib.ValueIdx

noncomputable section

namespace Cert.LibRowBcast

open Idealize.ShloMosaic Idealize.ShloMosaic.ValueIdx

variable {α : Type}

/-- A vector made a one-row array reads the vector's entry. -/
theorem bcast_vec_row_apply {b : ℕ} (h : (⟨1, ![b]⟩ : Shape).BroadcastsInDim ⟨2, ![1, b]⟩ (![1] : Fin 1 → Fin 2))
    (x : (⟨1, ![b]⟩ : Shape).Idx → α) (u : Fin 1) (j : Fin b) :
    broadcastInDim ⟨2, ![1, b]⟩ ![1] h x (ix2 u j) = x (ix1 j) := by
  refine broadcastInDim_apply _ h x _ (ix1 j) fun ax => ?_
  match ax with
  | ⟨0, _⟩ =>
    show j.val = if b = 1 then 0 else j.val
    split
    · have := j.isLt; omega
    · rfl

/-- A one-row array repeated down the rows reads the row's entry of that column. -/
theorem bcast_row_rows_apply {a b : ℕ} (h : (⟨2, ![1, b]⟩ : Shape).BroadcastsInDim ⟨2, ![a, b]⟩ (![0, 1] : Fin 2 → Fin 2))
    (x : (⟨2, ![1, b]⟩ : Shape).Idx → α) (i : Fin a) (j : Fin b) :
    broadcastInDim ⟨2, ![a, b]⟩ ![0, 1] h x (ix2 i j) = x (ix2 (0 : Fin 1) j) := by
  refine broadcastInDim_apply _ h x _ (ix2 (0 : Fin 1) j) fun ax => ?_
  match ax with
  | ⟨0, _⟩ => rfl
  | ⟨1, _⟩ =>
    show j.val = if b = 1 then 0 else j.val
    split
    · have := j.isLt; omega
    · rfl

/-- The two together: the vector's entry `j` at every row. -/
theorem bcast_vec_rows_apply {a b : ℕ} (h₁ : (⟨1, ![b]⟩ : Shape).BroadcastsInDim ⟨2, ![1, b]⟩ (![1] : Fin 1 → Fin 2))
    (h₂ : (⟨2, ![1, b]⟩ : Shape).BroadcastsInDim ⟨2, ![a, b]⟩ (![0, 1] : Fin 2 → Fin 2))
    (x : (⟨1, ![b]⟩ : Shape).Idx → α) (i : Fin a) (j : Fin b) :
    broadcastInDim ⟨2, ![a, b]⟩ ![0, 1] h₂ (broadcastInDim ⟨2, ![1, b]⟩ ![1] h₁ x) (ix2 i j) = x (ix1 j) :=
  (bcast_row_rows_apply h₂ _ i j).trans (bcast_vec_row_apply h₁ x 0 j)

end Cert.LibRowBcast

end
-- ==== Proof.RefRows.lean ====
/-
  The reference's result, read at one entry.

  The reference normalises the whole input in the centred arrangement (subtract the row mean, multiply by the
  reciprocal deviation, scale, shift) and applies the three dense layers as whole-array host operations.  Read at
  entry (r, c) every operation is pointwise or a layout operation or a sum over one axis: a row sum is the sum of the
  row, a per-row column spread across the row is the row's one value, a vector spread down the rows is the vector's
  entry of that column, a scalar spread anywhere is the scalar, and a plain contraction is the sum over the contracted
  axis.  So entry (r, c) is the per-row network of row r.  The stages are named below as the reference composes them;
  their composition is the term the reference's run ends with.
-/
import proofs.«143290_j18176301597146_2_alg».proof.Proof.Gen.ReferenceIdeal.Read
import proofs.«143290_j18176301597146_2_alg».proof.Proof.Head
import proofs.«143290_j18176301597146_2_alg».proof.Proof.LibPlainDot
import proofs.«143290_j18176301597146_2_alg».proof.Proof.LibJoinedRows
import proofs.«143290_j18176301597146_2_alg».proof.Proof.LibRowBcast
import Idealize.ShloMosaic.Lib.Pipeline.Value
import Idealize.ShloMosaic.Lib.ValueIdx
import Idealize.ShloMosaic.PureOps.Ideal.Laws

noncomputable section

open scoped BigOperators

namespace Cert.RefRows

open Cert.ReferenceIdeal Cert.ReferenceIdeal.Gen Idealize.ShloMosaic Idealize.ShloMosaic.ValueIdx Cert.Head

/-- The three contractions are plain matrix products. -/
theorem plain0 : Cert.LibPlainDot.Plain dot_S262144x384_S384x128_S262144x128_1_0_0_1_n_n := ⟨rfl, rfl, rfl, rfl, rfl, rfl⟩
theorem plain1 : Cert.LibPlainDot.Plain dot_S262144x128_S128x128_S262144x128_1_0_0_1_n_n := ⟨rfl, rfl, rfl, rfl, rfl, rfl⟩
theorem plain2 : Cert.LibPlainDot.Plain dot_S262144x128_S128x50_S262144x50_1_0_0_1_n_n := ⟨rfl, rfl, rfl, rfl, rfl, rfl⟩

/-! ## The reference's stages -/

/-- The row means, one column: the row sums over the count. -/
def meanCol (x : FVec Ideal S262144x384 .f32) : FVec Ideal S262144x1 .f32 :=
  Host.divf (broadcastInDim S262144x1 ![0] bcast_S262144_S262144x1_0
      (Host.reduceAdd x (constant (F := Ideal) S_ .f32 0x00000000#32) reducesTo_S262144x384_S262144_d1 h_S_))
    (broadcastInDim S262144x1 ![] bcast_S_S262144x1 (constant (F := Ideal) S_ .f32 0x43C00000#32))

/-- The input with each row's mean subtracted. -/
def centred (x : FVec Ideal S262144x384 .f32) : FVec Ideal S262144x384 .f32 :=
  subf x (broadcastInDim S262144x384 ![0, 1] bcast_S262144x1_S262144x384_0_1 (meanCol x))

/-- The reciprocal deviations, one column: rsqrt of the mean squared deviation plus the stabiliser. -/
def rdevCol (x : FVec Ideal S262144x384 .f32) : FVec Ideal S262144x1 .f32 :=
  Host.rsqrt (addf (Host.divf (broadcastInDim S262144x1 ![0] bcast_S262144_S262144x1_0
        (Host.reduceAdd (mulf (centred x) (centred x)) (constant (F := Ideal) S_ .f32 0x00000000#32)
          reducesTo_S262144x384_S262144_d1 h_S_))
      (broadcastInDim S262144x1 ![] bcast_S_S262144x1 (constant (F := Ideal) S_ .f32 0x43C00000#32)))
    (broadcastInDim S262144x1 ![] bcast_S_S262144x1 (constant (F := Ideal) S_ .f32 0x3727C5AC#32)))

/-- The normalised input. -/
def act (x : FVec Ideal S262144x384 .f32) (s b : FVec Ideal S384 .f32) : FVec Ideal S262144x384 .f32 :=
  addf (mulf (mulf (centred x) (broadcastInDim S262144x384 ![0, 1] bcast_S262144x1_S262144x384_0_1 (rdevCol x)))
      (broadcastInDim S262144x384 ![0, 1] bcast_S1x384_S262144x384_0_1 (broadcastInDim S1x384 ![1] bcast_S384_S1x384_1 s)))
    (broadcastInDim S262144x384 ![0, 1] bcast_S1x384_S262144x384_0_1 (broadcastInDim S1x384 ![1] bcast_S384_S1x384_1 b))

/-- The three layers over it. -/
def refNet (x : FVec Ideal S262144x384 .f32) (s b : FVec Ideal S384 .f32) (w0 : FVec Ideal S384x128 .f32)
    (b0 : FVec Ideal S128 .f32) (w1 : FVec Ideal S128x128 .f32) (b1 : FVec Ideal S128 .f32) (w2 : FVec Ideal S128x50 .f32)
    (b2 : FVec Ideal S50 .f32) : FVec Ideal S262144x50 .f32 :=
  addf (Host.dotGeneral dot_S262144x128_S128x50_S262144x50_1_0_0_1_n_n none
      (maximumf (addf (Host.dotGeneral dot_S262144x128_S128x128_S262144x128_1_0_0_1_n_n none
          (maximumf (addf (Host.dotGeneral dot_S262144x384_S384x128_S262144x128_1_0_0_1_n_n none (act x s b) w0)
              (broadcastInDim S262144x128 ![0, 1] bcast_S1x128_S262144x128_0_1 (broadcastInDim S1x128 ![1] bcast_S128_S1x128_1 b0)))
            (broadcastInDim S262144x128 ![] bcast_S_S262144x128 (constant (F := Ideal) S_ .f32 0x00000000#32))) w1)
          (broadcastInDim S262144x128 ![0, 1] bcast_S1x128_S262144x128_0_1 (broadcastInDim S1x128 ![1] bcast_S128_S1x128_1 b1)))
        (broadcastInDim S262144x128 ![] bcast_S_S262144x128 (constant (F := Ideal) S_ .f32 0x00000000#32))) w2)
    (broadcastInDim S262144x50 ![0, 1] bcast_S1x50_S262144x50_0_1 (broadcastInDim S1x50 ![1] bcast_S50_S1x50_1 b2))

/-- The composition is the last stage of the reference's run. -/
theorem stage_eq_refNet (x : FVec Ideal S262144x384 .f32) (s b : FVec Ideal S384 .f32) (w0 : FVec Ideal S384x128 .f32)
    (b0 : FVec Ideal S128 .f32) (w1 : FVec Ideal S128x128 .f32) (b1 : FVec Ideal S128 .f32) (w2 : FVec Ideal S128x50 .f32)
    (b2 : FVec Ideal S50 .f32) :
    Cert.ReferenceIdeal.Read.val_main_v37 (F := Ideal) x s b w0 b0 w1 b1 w2 b2 = refNet x s b w0 b0 w1 b1 w2 b2 := rfl

/-! ## Each stage at an entry -/

/-- A host contraction of plain dimension numbers read at an entry. -/
theorem hostDot_apply {A K B : ℕ} {D : DotDims ⟨2, ![A, K]⟩ ⟨2, ![K, B]⟩ ⟨2, ![A, B]⟩} (h : Cert.LibPlainDot.Plain D)
    (l : FVec Ideal ⟨2, ![A, K]⟩ .f32) (r : FVec Ideal ⟨2, ![K, B]⟩ .f32) (p : Fin A) (c : Fin B) :
    Host.dotGeneral D none l r (ix2 p c) = ∑ k : Fin K, l (ix2 p k) * r (ix2 k c) := by
  simp only [Host.dotGeneral]
  exact h.dotGeneral_apply none _ l r p c

/-- Host division and reciprocal square root are taken entry by entry. -/
theorem hostDivf_apply {s : Shape} (a b : FVec Ideal s .f32) (i : s.Idx) : Host.divf a b i = Ideal.div (a i) (b i) := rfl
theorem hostRsqrt_apply {s : Shape} (a : FVec Ideal s .f32) (i : s.Idx) : Host.rsqrt a i = Ideal.rsqrt (a i) := rfl

/-- The host's sum over the second axis from the zero word, at row r, is the sum of row r. -/
theorem rowSum_host (y : FVec Ideal S262144x384 .f32) (r : Fin 262144) :
    Host.reduceAdd y (constant (F := Ideal) S_ .f32 0x00000000#32) reducesTo_S262144x384_S262144_d1 h_S_ (ix1 r)
      = ∑ k : Fin 384, y (ix2 r k) := by
  simp only [Host.reduceAdd, Ideal.hostReduceAdd_def]
  rw [Ideal.hostReduceAdd_single reducesTo_S262144x384_S262144_d1 (by decide), constant_apply, Ideal.ofBits_zero_f32, zero_add]
  refine Finset.sum_congr rfl fun k _ => ?_
  exact congrArg y (funext fun a => Fin.ext (by match a with | ⟨0, _⟩ => rfl | ⟨1, _⟩ => rfl))

theorem meanCol_apply (x : FVec Ideal S262144x384 .f32) (r : Fin 262144) (u : Fin 1) :
    meanCol x (ix2 r u) = mean (fun k => x (ix2 r k)) := by
  unfold meanCol
  rw [hostDivf_apply, Cert.LibJoinedRows.bcast_vec_col_apply, Cert.LibJoinedRows.bcast_scalar_apply, constant_apply,
    rowSum_host]
  rfl

theorem centred_apply (x : FVec Ideal S262144x384 .f32) (r : Fin 262144) (k : Fin 384) :
    centred x (ix2 r k) = x (ix2 r k) - mean (fun k => x (ix2 r k)) := by
  unfold centred
  rw [subf_apply, Cert.LibJoinedRows.bcast_col_rows_apply, meanCol_apply]

theorem rdevCol_apply (x : FVec Ideal S262144x384 .f32) (r : Fin 262144) (u : Fin 1) :
    rdevCol x (ix2 r u) = Ideal.rsqrt (varCentred (fun k => x (ix2 r k)) + cEps) := by
  unfold rdevCol
  rw [hostRsqrt_apply, addf_apply, hostDivf_apply, Cert.LibJoinedRows.bcast_vec_col_apply,
    Cert.LibJoinedRows.bcast_scalar_apply, Cert.LibJoinedRows.bcast_scalar_apply, constant_apply, constant_apply, rowSum_host]
  rw [show (∑ k : Fin 384, mulf (centred x) (centred x) (ix2 r k))
      = ∑ k : Fin 384, (x (ix2 r k) - mean (fun k => x (ix2 r k))) * (x (ix2 r k) - mean (fun k => x (ix2 r k))) from
    Finset.sum_congr rfl fun k _ => by rw [mulf_apply, centred_apply]]
  rfl

theorem act_apply (x : FVec Ideal S262144x384 .f32) (s b : FVec Ideal S384 .f32) (r : Fin 262144) (k : Fin 384) :
    act x s b (ix2 r k) = normCentred (fun k => x (ix2 r k)) (fun k => s (ix1 k)) (fun k => b (ix1 k)) k := by
  unfold act
  rw [addf_apply, mulf_apply, mulf_apply, centred_apply, Cert.LibJoinedRows.bcast_col_rows_apply, rdevCol_apply,
    Cert.LibRowBcast.bcast_vec_rows_apply, Cert.LibRowBcast.bcast_vec_rows_apply]
  rfl

/-- One dense layer as the host composes it — a contraction plus a bias vector spread down the rows — at an entry. -/
theorem denseHost_apply {A K B : ℕ} {D : DotDims ⟨2, ![A, K]⟩ ⟨2, ![K, B]⟩ ⟨2, ![A, B]⟩} (h : Cert.LibPlainDot.Plain D)
    (h₁ : (⟨1, ![B]⟩ : Shape).BroadcastsInDim ⟨2, ![1, B]⟩ (![1] : Fin 1 → Fin 2))
    (h₂ : (⟨2, ![1, B]⟩ : Shape).BroadcastsInDim ⟨2, ![A, B]⟩ (![0, 1] : Fin 2 → Fin 2))
    (y : FVec Ideal ⟨2, ![A, K]⟩ .f32) (w : FVec Ideal ⟨2, ![K, B]⟩ .f32) (bias : FVec Ideal ⟨1, ![B]⟩ .f32) (r : Fin A) (j : Fin B) :
    addf (Host.dotGeneral D none y w) (broadcastInDim ⟨2, ![A, B]⟩ ![0, 1] h₂ (broadcastInDim ⟨2, ![1, B]⟩ ![1] h₁ bias)) (ix2 r j)
      = dense (fun k => y (ix2 r k)) w (fun n => bias (ix1 n)) j := by
  rw [addf_apply, hostDot_apply h, Cert.LibRowBcast.bcast_vec_rows_apply]
  rfl

/-- The maximum with a zero scalar spread over the array, at an entry. -/
theorem reluHost_apply {t : Shape} (h : (⟨0, ![]⟩ : Shape).BroadcastsInDim t (![] : Fin 0 → Fin t.rank))
    (z : FVec Ideal t .f32) (i : t.Idx) :
    maximumf z (broadcastInDim t ![] h (constant (F := Ideal) ⟨0, ![]⟩ .f32 0x00000000#32)) i = relu (z i) := by
  rw [maximumf_apply, Cert.LibJoinedRows.bcast_scalar_apply, constant_apply]
  rfl

/-- The reference's result at entry (r, c): the network of row r, normalised in the centred arrangement. -/
theorem refNet_apply (x : FVec Ideal S262144x384 .f32) (s b : FVec Ideal S384 .f32) (w0 : FVec Ideal S384x128 .f32)
    (b0 : FVec Ideal S128 .f32) (w1 : FVec Ideal S128x128 .f32) (b1 : FVec Ideal S128 .f32) (w2 : FVec Ideal S128x50 .f32)
    (b2 : FVec Ideal S50 .f32) (r : Fin 262144) (c : Fin 50) :
    refNet x s b w0 b0 w1 b1 w2 b2 (ix2 r c)
      = layers (normCentred (fun k => x (ix2 r k)) (fun k => s (ix1 k)) (fun k => b (ix1 k)))
          w0 (fun n => b0 (ix1 n)) w1 (fun n => b1 (ix1 n)) w2 (fun n => b2 (ix1 n)) c := by
  unfold refNet layers
  rw [denseHost_apply plain2]
  refine congrArg (fun a => dense a w2 (fun n => b2 (ix1 n)) c) (funext fun j => ?_)
  rw [reluHost_apply, denseHost_apply plain1]
  refine congrArg (fun a => relu (dense a w1 (fun n => b1 (ix1 n)) j)) (funext fun i => ?_)
  rw [reluHost_apply, denseHost_apply plain0]
  refine congrArg (fun a => relu (dense a w0 (fun n => b0 (ix1 n)) i)) (funext fun q => ?_)
  exact act_apply x s b r q

/-- So the reference's last stage is the centred-arrangement network of the arguments. -/
theorem ref_eq (x : FVec Ideal S262144x384 .f32) (s b : FVec Ideal S384 .f32) (w0 : FVec Ideal S384x128 .f32)
    (b0 : FVec Ideal S128 .f32) (w1 : FVec Ideal S128x128 .f32) (b1 : FVec Ideal S128 .f32) (w2 : FVec Ideal S128x50 .f32)
    (b2 : FVec Ideal S50 .f32) :
    Cert.ReferenceIdeal.Read.val_main_v37 (F := Ideal) x s b w0 b0 w1 b1 w2 b2
      = wholeCentred (N := 262144) x s b w0 b0 w1 b1 w2 b2 := by
  rw [stage_eq_refNet]
  funext i
  obtain ⟨r, c, rfl⟩ : ∃ (r : Fin 262144) (c : Fin 50), i = ix2 r c := ⟨i 0, i 1, eq_ix2 i⟩
  exact refNet_apply x s b w0 b0 w1 b1 w2 b2 r c

end Cert.RefRows

end
-- ==== Proof.LibAllFinite.lean ====
/-
  Reading a precondition's words. A precondition printed from `jnp.all(jnp.abs(x) < inf) & … & jnp.all(s > 0)` is a
  conjunction of `and`-reductions of comparison words, read at its one index. A comparison word that is `1` is the
  comparison of the two extended reals; `|x| < +∞` makes `x` a real number; hence an all-reduction of `|a| < +∞`
  that is `1` makes every entry of `a` real, and a word `a > b` at an index is `b j < a j`.
-/
import proofs.«143290_j18176301597146_2_alg».proof.Proof.LibRealEntries
import Idealize.ShloMosaic.Lib.ReduceAll
import Idealize.ShloMosaic.Lib.ValueIdx
import Idealize.ShloMosaic.PureOps.Ideal.Laws

noncomputable section

namespace Cert.LibAllFinite

open Idealize.ShloMosaic Idealize.ShloMosaic.ValueIdx Cert.LibRealEntries

instance : Subsingleton (⟨0, ![]⟩ : Shape).Idx := ⟨fun a b => funext fun d => d.elim0⟩

/-- The word `0x7F800000` is `+∞`. -/
theorem ofBits_inf : Ideal.ofBits .f32 0x7F800000#32 = (⊤ : EReal) := by
  simp [Ideal.ofBits, Ideal.ieee]

/-- A true comparison word is the comparison. -/
theorem lt_of_cmp_olt {x y : EReal} (h : Ideal.cmp .olt x y = 1#1) : x < y := by
  by_contra hn
  have : decide (x < y) = false := decide_eq_false hn
  simp [Ideal.cmp, this] at h

theorem lt_of_cmp_ogt {x y : EReal} (h : Ideal.cmp .ogt x y = 1#1) : y < x := by
  by_contra hn
  have : decide (y < x) = false := decide_eq_false hn
  simp [Ideal.cmp, this] at h

/-- `|x| < +∞` makes `x` a real number. -/
theorem isReal_of_abs_lt_top (x : EReal) (h : max x (-x) < (⊤ : EReal)) : IsReal x := by
  induction x using EReal.rec with
  | bot => simp at h
  | coe r => exact ⟨r, rfl⟩
  | top => simp at h

/-- `jnp.all(|a| < +∞)` that is true makes every entry of `a` a real number. -/
theorem real_of_all {s : Shape} {axes : List (Fin s.rank)} (a : FVec Ideal s .f32)
    (hb : (⟨0, ![]⟩ : Shape).BroadcastsInDim s (![] : Fin 0 → Fin s.rank))
    (init : IVec ⟨0, ![]⟩ 1) (hred : s.ReducesTo axes ⟨0, ![]⟩) (hu : 0 < (⟨0, ![]⟩ : Shape).numel)
    (h : Host.reduce IntOp.andi
      (cmpf .olt (Host.absf a) (broadcastInDim s ![] hb (constant (F := Ideal) ⟨0, ![]⟩ .f32 0x7F800000#32)))
      init hred hu ix0 = 1#1) (i : s.Idx) : IsReal (a i) := by
  have hi := Host.reduce_andi_all _ init hred hu ix0 h i
  have h1 : Ideal.cmp .olt (max (a i) (-(a i))) (Ideal.ofBits .f32 0x7F800000#32) = 1#1 := hi
  rw [ofBits_inf] at h1
  exact isReal_of_abs_lt_top _ (lt_of_cmp_olt h1)

/-- A true comparison word between two arrays at an index is the inequality of their entries. -/
theorem lt_of_cmpf_ogt {s : Shape} (a b : FVec Ideal s .f32) (j : s.Idx) (h : cmpf .ogt a b j = 1#1) : b j < a j :=
  lt_of_cmp_ogt h

end Cert.LibAllFinite

end
-- ==== Proof.Finite.lean ====
/-
  What the precondition says.

  The printed precondition is the conjunction, over the nine arguments, of "every entry has absolute value below
  +infinity", each an and-reduction of comparison words, read at its one index.  A conjunction word that is 1 has both
  its words 1; an and-reduction that is 1 has every word 1; and |a| < +infinity makes a a real number.  The input,
  the scale and the bias are the three the normalisation's algebra needs.
-/
import proofs.«143290_j18176301597146_2_alg».proof.Pre_finite_inputs
import proofs.«143290_j18176301597146_2_alg».proof.Proof.Gen.Pre_finite_inputs
import proofs.«143290_j18176301597146_2_alg».proof.Proof.LibAllFinite
import Idealize.ShloMosaic.Lib.Affine
import Idealize.ShloMosaic.Lib.ValueIdx

noncomputable section

namespace Cert.Finite

open Cert.Pre_finite_inputs Idealize.ShloMosaic Idealize.ShloMosaic.ValueIdx Cert.LibRealEntries

/-- A conjunction of two arrays of words is taken entry by entry. -/
theorem andi_apply {s : Shape} {w : ℕ} (x y : IVec s w) (i : s.Idx) : andi x y i = IntOp.andi (x i) (y i) := rfl

/-- Under the precondition the input, the scale and the bias have real entries. -/
theorem reals_of_pre (a0 : FVec Ideal S262144x384 .f32) (a1 a2 : FVec Ideal S384 .f32) (a3 : FVec Ideal S384x128 .f32)
    (a4 : FVec Ideal S128 .f32) (a5 : FVec Ideal S128x128 .f32) (a6 : FVec Ideal S128 .f32) (a7 : FVec Ideal S128x50 .f32)
    (a8 : FVec Ideal S50 .f32) (h : fn (F := Ideal) a0 a1 a2 a3 a4 a5 a6 a7 a8 = fun _ => 1#1) :
    (∀ i, IsReal (a0 i)) ∧ (∀ i, IsReal (a1 i)) ∧ (∀ i, IsReal (a2 i)) := by
  have h0 := congrFun h ix0
  dsimp only [fn, fn_part1, fn_part2] at h0
  simp only [andi_apply, IntOp.andi_eq_one] at h0
  obtain ⟨⟨⟨⟨⟨⟨⟨⟨h3, h7⟩, h12⟩, -⟩, -⟩, -⟩, -⟩, -⟩, -⟩ := h0
  exact ⟨Cert.LibAllFinite.real_of_all a0 _ _ _ _ h3, Cert.LibAllFinite.real_of_all a1 _ _ _ _ h7,
    Cert.LibAllFinite.real_of_all a2 _ _ _ _ h12⟩

end Cert.Finite

end
-- ==== Proof.lean ====
/-
  A prediction head: LayerNorm over rows of 384 entries followed by three dense layers (384 -> 128 -> 128 -> 50, the
  maximum with zero after the first two), on 262144 rows.  The kernel runs 64 grid points of 4096 rows each and
  normalises a row with one pass of moments, var = E[x^2] - E[x]^2, folding scale and shift into one affine map of x;
  the reference centres the row first, var = E[(x - mu)^2], then scales and shifts.  Both then apply the same three
  layers to the same normalised row.

  Over the extended reals, with every change of float format the identity:
    * the kernel's result array is ONE function of the arguments, entry (r, c) the network of row r in the moments
      arrangement (each point's block is the rows it covers of that function, and the blocks tile the rows);
    * the reference's result is the same function in the centred arrangement;
    * on inputs whose entries are real numbers the two arrangements agree (the population-variance identity, then
      var + eps a positive real so its reciprocal square root is real, then distributing over x - mu).
  The precondition supplies the finiteness; at an infinite entry the two arrangements do differ.

  The three frames: the two kernel programs' are generated; the reference has no kernel, so its frame is its run with
  the result dropped.  The idealisation rewrote nothing, so preserves is trivial.
-/
import proofs.«143290_j18176301597146_2_alg».proof.Defs
import proofs.«143290_j18176301597146_2_alg».proof.Proof.Gen.Kernel
import proofs.«143290_j18176301597146_2_alg».proof.Proof.Gen.Kernel.Skeleton
import proofs.«143290_j18176301597146_2_alg».proof.Proof.Gen.Kernel.Launch
import proofs.«143290_j18176301597146_2_alg».proof.Proof.Gen.Kernel.Points
import proofs.«143290_j18176301597146_2_alg».proof.Proof.Gen.Kernel.Frame
import proofs.«143290_j18176301597146_2_alg».proof.Proof.Gen.KernelIdeal
import proofs.«143290_j18176301597146_2_alg».proof.Proof.Gen.KernelIdeal.Skeleton
import proofs.«143290_j18176301597146_2_alg».proof.Proof.Gen.KernelIdeal.Launch
import proofs.«143290_j18176301597146_2_alg».proof.Proof.Gen.KernelIdeal.Points
import proofs.«143290_j18176301597146_2_alg».proof.Proof.Gen.KernelIdeal.Frame
import proofs.«143290_j18176301597146_2_alg».proof.Proof.Gen.ReferenceIdeal
import proofs.«143290_j18176301597146_2_alg».proof.Proof.Gen.Pre_finite_inputs
import proofs.«143290_j18176301597146_2_alg».proof.Proof.Gen.KernelIdeal.Value
import proofs.«143290_j18176301597146_2_alg».proof.Proof.Gen.ReferenceIdeal.Run
import proofs.«143290_j18176301597146_2_alg».proof.Proof.Gen.ReferenceIdeal.Read
import proofs.«143290_j18176301597146_2_alg».proof.Proof.KernelResult
import proofs.«143290_j18176301597146_2_alg».proof.Proof.RefRows
import proofs.«143290_j18176301597146_2_alg».proof.Proof.Finite
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at the network of the arguments: the kernel's in the moments arrangement,
    the reference's in the centred one, equal because the precondition makes the input, scale and bias real. -/
theorem algebraic : Cert.algebraic_KernelIdeal_ReferenceIdeal := by
  intro m ρ m' ρ' hpre hagree
  refine ⟨fun c => Cert.KernelArray.G m c, ?_, ?_⟩
  · exact (θ_run Cert.KernelIdeal.defs _ _).mono
      (fun r h c => ⟨(h c).1.trans (Cert.KernelArray.final9 m c), (h c).2⟩) (Cert.KernelIdeal.Value.run_blocks m ρ)
  · refine (θ_run Cert.ReferenceIdeal.defs _ _).mono (fun _ h c => ⟨(h c).1.trans ?_, (h c).2⟩)
      (Cert.ReferenceIdeal.Value.run (F := Ideal) m' ρ')
    obtain ⟨hx, hs, hb⟩ := Cert.Finite.reals_of_pre _ _ _ _ _ _ _ _ _ (hpre c)
    refine (Cert.ReferenceIdeal.Read.val_main_v37_eq _ _ _ _ _ _ _ _ _).trans ?_
    rw [Cert.RefRows.ref_eq, (hagree c).1, (hagree c).2.1, (hagree c).2.2.1, (hagree c).2.2.2.1, (hagree c).2.2.2.2.1,
      (hagree c).2.2.2.2.2.1, (hagree c).2.2.2.2.2.2.1, (hagree c).2.2.2.2.2.2.2.1, (hagree c).2.2.2.2.2.2.2.2]
    exact ((Cert.KernelResult.G_eq m c).trans
      (Cert.Head.wholeMoments_eq_wholeCentred _ _ _ hx hs hb _ _ _ _ _ _)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
